-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x49152x32 : Shape := ⟨3, ![16, 49152, 32]⟩
abbrev S393216 : Shape := ⟨1, ![393216]⟩
abbrev S32x1x5 : Shape := ⟨3, ![32, 1, 5]⟩
abbrev S64x32 : Shape := ⟨2, ![64, 32]⟩
abbrev S1x1x64 : Shape := ⟨3, ![1, 1, 64]⟩
abbrev S_ : Shape := ⟨0, ![]⟩

class Facts : Prop where
  bcast_S_S16x49152x32 : S_.BroadcastsInDim S16x49152x32 (![] : Fin 0 → Fin S16x49152x32.rank)
  reducesTo_S16x49152x32_S_d0_1_2 : S16x49152x32.ReducesTo [0, 1, 2] S_
  h_S_ : 0 < S_.numel
  bcast_S_S393216 : S_.BroadcastsInDim S393216 (![] : Fin 0 → Fin S393216.rank)
  reducesTo_S393216_S_d0 : S393216.ReducesTo [0] S_
  bcast_S_S32x1x5 : S_.BroadcastsInDim S32x1x5 (![] : Fin 0 → Fin S32x1x5.rank)
  reducesTo_S32x1x5_S_d0_1_2 : S32x1x5.ReducesTo [0, 1, 2] S_
  bcast_S_S64x32 : S_.BroadcastsInDim S64x32 (![] : Fin 0 → Fin S64x32.rank)
  reducesTo_S64x32_S_d0_1 : S64x32.ReducesTo [0, 1] S_
  bcast_S_S1x1x64 : S_.BroadcastsInDim S1x1x64 (![] : Fin 0 → Fin S1x1x64.rank)
  reducesTo_S1x1x64_S_d0_1_2 : S1x1x64.ReducesTo [0, 1, 2] S_

variable [Facts]

def fn_part1 {F : FTy → Type} [FloatOps F] (main_arg4 : FVec F S1x1x64 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S1x1x64 .f32 := Host.absf main_arg4
  let main_cst_6 : FVec F S_ .f32 := constant S_ .f32 0x7F800000#32
  let main_v20 : FVec F S1x1x64 .f32 := broadcastInDim S1x1x64 ![] bcast_S_S1x1x64 main_cst_6
  let main_v21 : IVec S1x1x64 1 := cmpf .olt main_v19 main_v20
  let main_c_7 : IVec S_ 1 := constantI S_ 1 1#1
  let main_v22 : IVec S_ 1 := (fun x v => Host.reduce IntOp.andi x v reducesTo_S1x1x64_S_d0_1_2 h_S_) main_v21 main_c_7
  let main_v23 : IVec S_ 1 := andi main_v18 main_v22
  main_v23

def fn {F : FTy → Type} [FloatOps F] (main_arg0 : FVec F S16x49152x32 .f32) (main_arg1 : FVec F S393216 .f32) (main_arg2 : FVec F S32x1x5 .f32) (main_arg3 : FVec F S64x32 .f32) (main_arg4 : FVec F S1x1x64 .f32) (main_arg5 : IVec S393216 32) (main_arg6 : IVec S393216 32) : IVec S_ 1 :=
  let main_v0 : FVec F S16x49152x32 .f32 := Host.absf main_arg0
  let main_cst : FVec F S_ .f32 := constant S_ .f32 0x7F800000#32
  let main_v1 : FVec F S16x49152x32 .f32 := broadcastInDim S16x49152x32 ![] bcast_S_S16x49152x32 main_cst
  let main_v2 : IVec S16x49152x32 1 := cmpf .olt main_v0 main_v1
  let main_c : IVec S_ 1 := constantI S_ 1 1#1
  let main_v3 : IVec S_ 1 := (fun x v => Host.reduce IntOp.andi x v reducesTo_S16x49152x32_S_d0_1_2 h_S_) main_v2 main_c
  let main_v4 : FVec F S393216 .f32 := Host.absf main_arg1
  let main_cst_0 : FVec F S_ .f32 := constant S_ .f32 0x7F800000#32
  let main_v5 : FVec F S393216 .f32 := broadcastInDim S393216 ![] bcast_S_S393216 main_cst_0
  let main_v6 : IVec S393216 1 := cmpf .olt main_v4 main_v5
  let main_c_1 : IVec S_ 1 := constantI S_ 1 1#1
  let main_v7 : IVec S_ 1 := (fun x v => Host.reduce IntOp.andi x v reducesTo_S393216_S_d0 h_S_) main_v6 main_c_1
  let main_v8 : IVec S_ 1 := andi main_v3 main_v7
  let main_v9 : FVec F S32x1x5 .f32 := Host.absf main_arg2
  let main_cst_2 : FVec F S_ .f32 := constant S_ .f32 0x7F800000#32
  let main_v10 : FVec F S32x1x5 .f32 := broadcastInDim S32x1x5 ![] bcast_S_S32x1x5 main_cst_2
  let main_v11 : IVec S32x1x5 1 := cmpf .olt main_v9 main_v10
  let main_c_3 : IVec S_ 1 := constantI S_ 1 1#1
  let main_v12 : IVec S_ 1 := (fun x v => Host.reduce IntOp.andi x v reducesTo_S32x1x5_S_d0_1_2 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S16x49152x32 : Shape := ⟨3, ![16, 49152, 32]⟩
abbrev S393216 : Shape := ⟨1, ![393216]⟩
abbrev S32x1x5 : Shape := ⟨3, ![32, 1, 5]⟩
abbrev S64x32 : Shape := ⟨2, ![64, 32]⟩
abbrev S1x1x64 : Shape := ⟨3, ![1, 1, 64]⟩
abbrev S393216x1 : Shape := ⟨2, ![393216, 1]⟩
abbrev S_ : Shape := ⟨0, ![]⟩
abbrev S16x393216x32 : Shape := ⟨3, ![16, 393216, 32]⟩
abbrev S1x393216x1 : Shape := ⟨3, ![1, 393216, 1]⟩
abbrev S49152x32 : Shape := ⟨2, ![49152, 32]⟩
abbrev S32x5 : Shape := ⟨2, ![32, 5]⟩
abbrev S32x1 : Shape := ⟨2, ![32, 1]⟩
abbrev S32 : Shape := ⟨1, ![32]⟩
abbrev S1x32 : Shape := ⟨2, ![1, 32]⟩
abbrev S32x64 : Shape := ⟨2, ![32, 64]⟩
abbrev S1x32x64 : Shape := ⟨3, ![1, 32, 64]⟩
abbrev S5x32x64 : Shape := ⟨3, ![5, 32, 64]⟩
abbrev S64 : Shape := ⟨1, ![64]⟩
abbrev S16x49152x64 : Shape := ⟨3, ![16, 49152, 64]⟩
abbrev S1x2048x32 : Shape := ⟨3, ![1, 2048, 32]⟩
abbrev S1x2048x64 : Shape := ⟨3, ![1, 2048, 64]⟩
abbrev S2048x64 : Shape := ⟨2, ![2048, 64]⟩
abbrev S2048x32 : Shape := ⟨2, ![2048, 32]⟩
abbrev S1x64 : Shape := ⟨2, ![1, 64]⟩

abbrev nBuf : Space → Nat
  | .hbm => 130
  | .vmem => 14
  | .smem => 0
  | _ => 0

abbrev hbmTy0_0 (i : Nat) : BufTy := match i % 128 with
  | 0 => ⟨S16x49152x32, .f32⟩
  | 1 => ⟨S393216, .f32⟩
  | 2 => ⟨S32x1x5, .f32⟩
  | 3 => ⟨S64x32, .f32⟩
  | 4 => ⟨S1x1x64, .f32⟩
  | 5 => ⟨S393216, .i32⟩
  | 6 => ⟨S393216, .i32⟩
  | 7 => ⟨S393216x1, .f32⟩
  | 8 => ⟨S_, .i32⟩
  | 9 => ⟨S393216, .i32⟩
  | 10 => ⟨S393216, .i1⟩
  | 11 => ⟨S_, .i32⟩
  | 12 => ⟨S393216, .i32⟩
  | 13 => ⟨S393216, .i32⟩
  | 14 => ⟨S393216, .i32⟩
  | 15 => ⟨S393216x1, .i32⟩
  | 16 => ⟨S16x393216x32, .f32⟩
  | 17 => ⟨S1x393216x1, .f32⟩
  | 18 => ⟨S16x393216x32, .f32⟩
  | 19 => ⟨S16x393216x32, .f32⟩
  | 20 => ⟨S_, .f32⟩
  | 21 => ⟨S49152x32, .f32⟩
  | 22 => ⟨S393216x1, .i32⟩
  | 23 => ⟨S16x49152x32, .f32⟩
  | 24 => ⟨S16x49152x32, .f32⟩
  | 25 => ⟨S393216x1, .f32⟩
  | 26 => ⟨S_, .i32⟩
  | 27 => ⟨S393216, .i32⟩
  | 28 => ⟨S393216, .i1⟩
  | 29 => ⟨S_, .i32⟩
  | 30 => ⟨S393216, .i32⟩
  | 31 => ⟨S393216, .i32⟩
  | 32 => ⟨S393216, .i32⟩
  | 33 => ⟨S393216x1, .i32⟩
  | 34 => ⟨S16x393216x32, .f32⟩
  | 35 => ⟨S1x393216x1, .f32⟩
  | 36 => ⟨S16x393216x32, .f32⟩
  | 37 => ⟨S16x393216x32, .f32⟩
  | 38 => ⟨S_, .f32⟩
  | 39 => ⟨S49152x32, .f32⟩
  | 40 => ⟨S393216x1, .i32⟩
  | 41 => ⟨S16x49152x32, .f32⟩
  | 42 => ⟨S16x49152x32, .f32⟩
  | 43 => ⟨S_, .f32⟩
  | 44 => ⟨S16x49152x32, .f32⟩
  | 45 => ⟨S16x49152x32, .f32⟩
  | 46 => ⟨S16x49152x32, .f32⟩
  | 47 => ⟨S393216x1, .f32⟩
  | 48 => ⟨S_, .i32⟩
  | 49 => ⟨S393216, .i32⟩
  | 50 => ⟨S393216, .i1⟩
  | 51 => ⟨S_, .i32⟩
  | 52 => ⟨S393216, .i32⟩
  | 53 => ⟨S393216, .i32⟩
  | 54 => ⟨S393216, .i32⟩
  | 55 => ⟨S393216x1, .i32⟩
  | 56 => ⟨S16x393216x32, .f32⟩
  | 57 => ⟨S1x393216x1, .f32⟩
  | 58 => ⟨S16x393216x32, .f32⟩
  | 59 => ⟨S16x393216x32, .f32⟩
  | 60 => ⟨S_, .f32⟩
  | 61 => ⟨S49152x32, .f32⟩
  | 62 => ⟨S393216x1, .i32⟩
  | 63 => ⟨S16x49152x32, .f32⟩
  | 64 => ⟨S16x49152x32, .f32⟩
  | 65 => ⟨S_, .f32⟩
  | 66 => ⟨S16x49152x32, .f32⟩
  | 67 => ⟨S16x49152x32, .f32⟩
  | 68 => ⟨S16x49152x32, .f32⟩
  | 69 => ⟨S393216x1, .f32⟩
  | 70 => ⟨S_, .i32⟩
  | 71 => ⟨S393216, .i32⟩
  | 72 => ⟨S393216, .i1⟩
  | 73 => ⟨S_, .i32⟩
  | 74 => ⟨S393216, .i32⟩
  | 75 => ⟨S393216, .i32⟩
  | 76 => ⟨S393216, .i32⟩
  | 77 => ⟨S393216x1, .i32⟩
  | 78 => ⟨S16x393216x32, .f32⟩
  | 79 => ⟨S1x393216x1, .f32⟩
  | 80 => ⟨S16x393216x32, .f32⟩
  | 81 => ⟨S16x393216x32, .f32⟩
  | 82 => ⟨S_, .f32⟩
  | 83 => ⟨S49152x32, .f32⟩
  | 84 => ⟨S393216x1, .i32⟩
  | 85 => ⟨S16x49152x32, .f32⟩
  | 86 => ⟨S16x49152x32, .f32⟩
  | 87 => ⟨S_, .f32⟩
  | 88 => ⟨S16x49152x32, .f32⟩
  | 89 => ⟨S16x49152x32, .f32⟩
  | 90 => ⟨S16x49152x32, .f32⟩
  | 91 => ⟨S32x5, .f32⟩
  | 92 => ⟨S32x1, .f32⟩
  | 93 => ⟨S32, .f32⟩
  | 94 => ⟨S1x32, .f32⟩
  | 95 => ⟨S64x32, .f32⟩
  | 96 => ⟨S64x32, .f32⟩
  | 97 => ⟨S32x64, .f32⟩
  | 98 => ⟨S32x1, .f32⟩
  | 99 => ⟨S32, .f32⟩
  | 100 => ⟨S1x32, .f32⟩
  | 101 => ⟨S64x32, .f32⟩
  | 102 => ⟨S64x32, .f32⟩
  | 103 => ⟨S32x64, .f32⟩
  | 104 => ⟨S32x1, .f32⟩
  | 105 => ⟨S32, .f32⟩
  | 106 => ⟨S1x32, .f32⟩
  | 107 => ⟨S64x32, .f32⟩
  | 108 => ⟨S64x32, .f32⟩
  | 109 => ⟨S32x64, .f32⟩
  | 110 => ⟨S32x1, .f32⟩
  | 111 => ⟨S32, .f32⟩
  | 112 => ⟨S1x32, .f32⟩
  | 113 => ⟨S64x32, .f32⟩
  | 114 => ⟨S64x32, .f32⟩
  | 115 => ⟨S32x64, .f32⟩
  | 116 => ⟨S32x1, .f32⟩
  | 117 => ⟨S32, .f32⟩
  | 118 => ⟨S1x32, .f32⟩
  | 119 => ⟨S64x32, .f32⟩
  | 120 => ⟨S64x32, .f32⟩
  | 121 => ⟨S32x64, .f32⟩
  | 122 => ⟨S1x32x64, .f32⟩
  | 123 => ⟨S1x32x64, .f32⟩
  | 124 => ⟨S1x32x64, .f32⟩
  | 125 => ⟨S1x32x64, .f32⟩
  | 126 => ⟨S1x32x64, .f32⟩
  | 127 => ⟨S5x32x64, .f32⟩
  | _ => ⟨S16x49152x32, .f32⟩

abbrev hbmTy0_1 (i : Nat) : BufTy := match i % 128 with
  | 0 => ⟨S64, .f32⟩
  | 1 => ⟨S16x49152x64, .f32⟩
  | _ => ⟨S16x49152x32, .f32⟩

abbrev hbmTy (i : Nat) : BufTy := match i / 128 with
  | 0 => hbmTy0_0 i
  | 1 => hbmTy0_1 i
  | _ => ⟨S16x49152x32, .f32⟩

abbrev bufTy : (tb : Table) → Fin (tcTables nBuf tb) → BufTy
  | .hbm, ⟨i, _⟩ => hbmTy i
  | .local _ .vmem, ⟨0, _⟩ => ⟨S1x2048x32, .f32⟩
  | .local _ .vmem, ⟨1, _⟩ => ⟨S1x2048x32, .f32⟩
  | .local _ .vmem, ⟨2, _⟩ => ⟨S1x2048x32, .f32⟩
  | .local _ .vmem, ⟨3, _⟩ => ⟨S1x2048x32, .f32⟩
  | .local _ .vmem, ⟨4, _⟩ => ⟨S1x2048x32, .f32⟩
  | .local _ .vmem, ⟨5, _⟩ => ⟨S1x2048x32, .f32⟩
  | .local _ .vmem, ⟨6, _⟩ => ⟨S1x2048x32, .f32⟩
  | .local _ .vmem, ⟨7, _⟩ => ⟨S1x2048x32, .f32⟩
  | .local _ .vmem, ⟨8, _⟩ => ⟨S1x2048x32, .f32⟩
  | .local _ .vmem, ⟨9, _⟩ => ⟨S1x2048x32, .f32⟩
  | .local _ .vmem, ⟨10, _⟩ => ⟨S5x32x64, .f32⟩
  | .local _ .vmem, ⟨11, _⟩ => ⟨S64, .f32⟩
  | .local _ .vmem, ⟨12, _⟩ => ⟨S1x2048x64, .f32⟩
  | .local _ .vmem, ⟨13, _⟩ => ⟨S1x2048x64, .f32⟩
  | _, _ => ⟨S16x49152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S5x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S1x393216x1_1_2 : S393216x1.BroadcastsInDim S1x393216x1 (![1, 2] : Fin 2 → Fin S1x393216x1.rank)
  bcast_S1x393216x1_S16x393216x32_0_1_2 : S1x393216x1.BroadcastsInDim S16x393216x32 (![0, 1, 2] : Fin 3 → Fin S16x393216x32.rank)
  bcast_S_S49152x32 : S_.BroadcastsInDim S49152x32 (![] : Fin 0 → Fin S49152x32.rank)
  bcast_S49152x32_S16x49152x32_1_2 : S49152x32.BroadcastsInDim S16x49152x32 (![1, 2] : Fin 2 → Fin S16x49152x32.rank)
  bcast_S_S16x49152x32 : S_.BroadcastsInDim S16x49152x32 (![] : Fin 0 → Fin S16x49152x32.rank)
  shapeCasts_S32x1x5_S32x5 : S32x1x5.ShapeCasts S32x5
  slices_S32x5_S32x1_0_0 : S32x5.Slices ![0, 0] S32x1
  shapeCasts_S32x1_S32 : S32x1.ShapeCasts S32
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  transposes_S64x32_S32x64_1_0 : S64x32.Transposes [1, 0] S32x64
  slices_S32x5_S32x1_0_1 : S32x5.Slices ![0, 1] S32x1
  slices_S32x5_S32x1_0_2 : S32x5.Slices ![0, 2] S32x1
  slices_S32x5_S32x1_0_3 : S32x5.Slices ![0, 3] S32x1
  slices_S32x5_S32x1_0_4 : S32x5.Slices ![0, 4] S32x1
  bcast_S32x64_S1x32x64_1_2 : S32x64.BroadcastsInDim S1x32x64 (![1, 2] : Fin 2 → Fin S1x32x64.rank)
  concatenates_S1x32x64_S1x32x64_S1x32x64_S1x32x64_S1x32x64_S5x32x64_d0 : Shape.Concatenates [S1x32x64, S1x32x64, S1x32x64, S1x32x64, S1x32x64] S5x32x64 0
  shapeCasts_S1x1x64_S64 : S1x1x64.ShapeCasts S64
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  bitsLt_bf16_f32 : FTy.bits .bf16 < FTy.bits .f32
  inb_S5x32x64_S1x32x64_0_0_0 : ∀ a, (![0, 0, 0] : Fin 3 → Nat) a + S1x32x64.size a ≤ S5x32x64.size a
  h_S1x32x64 : 0 < S1x32x64.numel
  shapeCasts_S1x32x64_S32x64 : S1x32x64.ShapeCasts S32x64
  inb_S5x32x64_S1x32x64_1_0_0 : ∀ a, (![1, 0, 0] : Fin 3 → Nat) a + S1x32x64.size a ≤ S5x32x64.size a
  inb_S5x32x64_S1x32x64_2_0_0 : ∀ a, (![2, 0, 0] : Fin 3 → Nat) a + S1x32x64.size a ≤ S5x32x64.size a
  inb_S5x32x64_S1x32x64_3_0_0 : ∀ a, (![3, 0, 0] : Fin 3 → Nat) a + S1x32x64.size a ≤ S5x32x64.size a
  inb_S5x32x64_S1x32x64_4_0_0 : ∀ a, (![4, 0, 0] : Fin 3 → Nat) a + S1x32x64.size a ≤ S5x32x64.size a
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S2048x64 : S1x64.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  gather_S16x49152x32_S393216x1_S16x393216x32_02_1_n_n_1_1_16132_wf : GatherDims.WF S16x49152x32 S393216x1 S16x393216x32 [0, 2] [1] [] [1] [] 1 ![16, 1, 32]
  scatter_S16x49152x32_S393216x1_S16x393216x32_02_1_1_1_wf : ScatterDims.WF S16x49152x32 S393216x1 S16x393216x32 [0, 2] [1] [1] 1
  dot_S2048x32_S32x64_S2048x64_1_0_0_1_n_n_wf : DotDims.WF S2048x32 S32x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x32.size a ≤ S16x49152x32.size a
  hwx0_0 : ∀ i : grid0.Coords, EltTy.bits .f32 = 32 ∨ (Rect.block (s := S16x49152x32) S1x2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x32.size a ≤ S16x49152x32.size a
  hwx0_1 : ∀ i : grid0.Coords, EltTy.bits .f32 = 32 ∨ (Rect.block (s := S16x49152x32) S1x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x32.size a ≤ S16x49152x32.size a
  hwx0_2 : ∀ i : grid0.Coords, EltTy.bits .f32 = 32 ∨ (Rect.block (s := S16x49152x32) S1x2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x32.size a ≤ S16x49152x32.size a
  hwx0_3 : ∀ i : grid0.Coords, EltTy.bits .f32 = 32 ∨ (Rect.block (s := S16x49152x32) S1x2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x32.size a ≤ S16x49152x32.size a
  hwx0_4 : ∀ i : grid0.Coords, EltTy.bits .f32 = 32 ∨ (Rect.block (s := S16x49152x32) S1x2048x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x32x64.size a ≤ S5x32x64.size a
  hwx0_5 : ∀ i : grid0.Coords, EltTy.bits .f32 = 32 ∨ (Rect.block (s := S5x32x64) S5x32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x64.size a ≤ S16x49152x64.size a
  hwx0_7 : ∀ i : grid0.Coords, EltTy.bits .f32 = 32 ∨ (Rect.block (s := S16x49152x64) S1x2048x64.size (cc0_transform_7 i) (hinb0_7 i)).WholeWords (EltTy.packing .f32)

variable [Facts₀]

def gather_S16x49152x32_S393216x1_S16x393216x32_02_1_n_n_1_1_16132 : GatherDims S16x49152x32 S393216x1 S16x393216x32 where
  offsetDims := [0, 2]
  collapsedSliceDims := [1]
  operandBatchingDims := []
  startIndicesBatchingDims := []
  startIndexMap := [1]
  indexVectorDim := 1
  sliceSizes := ![16, 1, 32]
  wf := gather_S16x49152x32_S393216x1_S16x393216x32_02_1_n_n_1_1_16132_wf
def scatter_S16x49152x32_S393216x1_S16x393216x32_02_1_1_1 : ScatterDims S16x49152x32 S393216x1 S16x393216x32 where
  updateWindowDims := [0, 2]
  insertedWindowDims := [1]
  scatterDimsToOperandDims := [1]
  indexVectorDim := 1
  wf := scatter_S16x49152x32_S393216x1_S16x393216x32_02_1_1_1_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf

abbrev win0_0 : Pipeline.Window sig grid0 :=
  Pipeline.Window.ofSpec (Memref.whole main_arg0) S1x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x2048x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v105) S5x32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v106) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v107) S1x2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x49152x32 : Shape := ⟨3, ![16, 49152, 32]⟩
abbrev S393216 : Shape := ⟨1, ![393216]⟩
abbrev S32x1x5 : Shape := ⟨3, ![32, 1, 5]⟩
abbrev S64x32 : Shape := ⟨2, ![64, 32]⟩
abbrev S1x1x64 : Shape := ⟨3, ![1, 1, 64]⟩
abbrev S49152x16x32 : Shape := ⟨3, ![49152, 16, 32]⟩
abbrev S49152x512 : Shape := ⟨2, ![49152, 512]⟩
abbrev S393216x1 : Shape := ⟨2, ![393216, 1]⟩
abbrev S_ : Shape := ⟨0, ![]⟩
abbrev S393216x512 : Shape := ⟨2, ![393216, 512]⟩
abbrev S1x49152x512 : Shape := ⟨3, ![1, 49152, 512]⟩
abbrev S5x49152x512 : Shape := ⟨3, ![5, 49152, 512]⟩
abbrev S5x49152x16x32 : Shape := ⟨4, ![5, 49152, 16, 32]⟩
abbrev S32x5x16x49152 : Shape := ⟨4, ![32, 5, 16, 49152]⟩
abbrev S32x5x786432 : Shape := ⟨3, ![32, 5, 786432]⟩
abbrev S32x1x786432 : Shape := ⟨3, ![32, 1, 786432]⟩
abbrev S32x786432 : Shape := ⟨2, ![32, 786432]⟩
abbrev S64x786432 : Shape := ⟨2, ![64, 786432]⟩
abbrev S786432x64 : Shape := ⟨2, ![786432, 64]⟩
abbrev S16x49152x64 : Shape := ⟨3, ![16, 49152, 64]⟩

abbrev nBuf : Space → Nat
  | .hbm => 104
  | .vmem => 0
  | .smem => 0
  | _ => 0

abbrev bufTy : (tb : Table) → Fin (tcTables nBuf tb) → BufTy
  | .hbm, ⟨0, _⟩ => ⟨S16x49152x32, .f32⟩
  | .hbm, ⟨1, _⟩ => ⟨S393216, .f32⟩
  | .hbm, ⟨2, _⟩ => ⟨S32x1x5, .f32⟩
  | .hbm, ⟨3, _⟩ => ⟨S64x32, .f32⟩
  | .hbm, ⟨4, _⟩ => ⟨S1x1x64, .f32⟩
  | .hbm, ⟨5, _⟩ => ⟨S393216, .i32⟩
  | .hbm, ⟨6, _⟩ => ⟨S393216, .i32⟩
  | .hbm, ⟨7, _⟩ => ⟨S49152x16x32, .f32⟩
  | .hbm, ⟨8, _⟩ => ⟨S49152x512, .f32⟩
  | .hbm, ⟨9, _⟩ => ⟨S393216x1, .f32⟩
  | .hbm, ⟨10, _⟩ => ⟨S_, .i32⟩
  | .hbm, ⟨11, _⟩ => ⟨S393216, .i32⟩
  | .hbm, ⟨12, _⟩ => ⟨S393216, .i1⟩
  | .hbm, ⟨13, _⟩ => ⟨S_, .i32⟩
  | .hbm, ⟨14, _⟩ => ⟨S393216, .i32⟩
  | .hbm, ⟨15, _⟩ => ⟨S393216, .i32⟩
  | .hbm, ⟨16, _⟩ => ⟨S393216, .i32⟩
  | .hbm, ⟨17, _⟩ => ⟨S393216x1, .i32⟩
  | .hbm, ⟨18, _⟩ => ⟨S393216x512, .f32⟩
  | .hbm, ⟨19, _⟩ => ⟨S393216x512, .f32⟩
  | .hbm, ⟨20, _⟩ => ⟨S393216x512, .f32⟩
  | .hbm, ⟨21, _⟩ => ⟨S_, .f32⟩
  | .hbm, ⟨22, _⟩ => ⟨S49152x512, .f32⟩
  | .hbm, ⟨23, _⟩ => ⟨S393216x1, .i32⟩
  | .hbm, ⟨24, _⟩ => ⟨S49152x512, .f32⟩
  | .hbm, ⟨25, _⟩ => ⟨S393216x1, .f32⟩
  | .hbm, ⟨26, _⟩ => ⟨S_, .i32⟩
  | .hbm, ⟨27, _⟩ => ⟨S393216, .i32⟩
  | .hbm, ⟨28, _⟩ => ⟨S393216, .i1⟩
  | .hbm, ⟨29, _⟩ => ⟨S_, .i32⟩
  | .hbm, ⟨30, _⟩ => ⟨S393216, .i32⟩
  | .hbm, ⟨31, _⟩ => ⟨S393216, .i32⟩
  | .hbm, ⟨32, _⟩ => ⟨S393216, .i32⟩
  | .hbm, ⟨33, _⟩ => ⟨S393216x1, .i32⟩
  | .hbm, ⟨34, _⟩ => ⟨S393216x512, .f32⟩
  | .hbm, ⟨35, _⟩ => ⟨S393216x512, .f32⟩
  | .hbm, ⟨36, _⟩ => ⟨S393216x512, .f32⟩
  | .hbm, ⟨37, _⟩ => ⟨S_, .f32⟩
  | .hbm, ⟨38, _⟩ => ⟨S49152x512, .f32⟩
  | .hbm, ⟨39, _⟩ => ⟨S393216x1, .i32⟩
  | .hbm, ⟨40, _⟩ => ⟨S49152x512, .f32⟩
  | .hbm, ⟨41, _⟩ => ⟨S_, .f32⟩
  | .hbm, ⟨42, _⟩ => ⟨S49152x512, .f32⟩
  | .hbm, ⟨43, _⟩ => ⟨S49152x512, .f32⟩
  | .hbm, ⟨44, _⟩ => ⟨S49152x512, .f32⟩
  | .hbm, ⟨45, _⟩ => ⟨S393216x1, .f32⟩
  | .hbm, ⟨46, _⟩ => ⟨S_, .i32⟩
  | .hbm, ⟨47, _⟩ => ⟨S393216, .i32⟩
  | .hbm, ⟨48, _⟩ => ⟨S393216, .i1⟩
  | .hbm, ⟨49, _⟩ => ⟨S_, .i32⟩
  | .hbm, ⟨50, _⟩ => ⟨S393216, .i32⟩
  | .hbm, ⟨51, _⟩ => ⟨S393216, .i32⟩
  | .hbm, ⟨52, _⟩ => ⟨S393216, .i32⟩
  | .hbm, ⟨53, _⟩ => ⟨S393216x1, .i32⟩
  | .hbm, ⟨54, _⟩ => ⟨S393216x512, .f32⟩
  | .hbm, ⟨55, _⟩ => ⟨S393216x512, .f32⟩
  | .hbm, ⟨56, _⟩ => ⟨S393216x512, .f32⟩
  | .hbm, ⟨57, _⟩ => ⟨S_, .f32⟩
  | .hbm, ⟨58, _⟩ => ⟨S49152x512, .f32⟩
  | .hbm, ⟨59, _⟩ => ⟨S393216x1, .i32⟩
  | .hbm, ⟨60, _⟩ => ⟨S49152x512, .f32⟩
  | .hbm, ⟨61, _⟩ => ⟨S_, .f32⟩
  | .hbm, ⟨62, _⟩ => ⟨S49152x512, .f32⟩
  | .hbm, ⟨63, _⟩ => ⟨S49152x512, .f32⟩
  | .hbm, ⟨64, _⟩ => ⟨S49152x512, .f32⟩
  | .hbm, ⟨65, _⟩ => ⟨S393216x1, .f32⟩
  | .hbm, ⟨66, _⟩ => ⟨S_, .i32⟩
  | .hbm, ⟨67, _⟩ => ⟨S393216, .i32⟩
  | .hbm, ⟨68, _⟩ => ⟨S393216, .i1⟩
  | .hbm, ⟨69, _⟩ => ⟨S_, .i32⟩
  | .hbm, ⟨70, _⟩ => ⟨S393216, .i32⟩
  | .hbm, ⟨71, _⟩ => ⟨S393216, .i32⟩
  | .hbm, ⟨72, _⟩ => ⟨S393216, .i32⟩
  | .hbm, ⟨73, _⟩ => ⟨S393216x1, .i32⟩
  | .hbm, ⟨74, _⟩ => ⟨S393216x512, .f32⟩
  | .hbm, ⟨75, _⟩ => ⟨S393216x512, .f32⟩
  | .hbm, ⟨76, _⟩ => ⟨S393216x512, .f32⟩
  | .hbm, ⟨77, _⟩ => ⟨S_, .f32⟩
  | .hbm, ⟨78, _⟩ => ⟨S49152x512, .f32⟩
  | .hbm, ⟨79, _⟩ => ⟨S393216x1, .i32⟩
  | .hbm, ⟨80, _⟩ => ⟨S49152x512, .f32⟩
  | .hbm, ⟨81, _⟩ => ⟨S_, .f32⟩
  | .hbm, ⟨82, _⟩ => ⟨S49152x512, .f32⟩
  | .hbm, ⟨83, _⟩ => ⟨S49152x512, .f32⟩
  | .hbm, ⟨84, _⟩ => ⟨S49152x512, .f32⟩
  | .hbm, ⟨85, _⟩ => ⟨S1x49152x512, .f32⟩
  | .hbm, ⟨86, _⟩ => ⟨S1x49152x512, .f32⟩
  | .hbm, ⟨87, _⟩ => ⟨S1x49152x512, .f32⟩
  | .hbm, ⟨88, _⟩ => ⟨S1x49152x512, .f32⟩
  | .hbm, ⟨89, _⟩ => ⟨S1x49152x512, .f32⟩
  | .hbm, ⟨90, _⟩ => ⟨S5x49152x512, .f32⟩
  | .hbm, ⟨91, _⟩ => ⟨S5x49152x16x32, .f32⟩
  | .hbm, ⟨92, _⟩ => ⟨S32x5x16x49152, .f32⟩
  | .hbm, ⟨93, _⟩ => ⟨S32x5x786432, .f32⟩
  | .hbm, ⟨94, _⟩ => ⟨S32x1x786432, .f32⟩
  | .hbm, ⟨95, _⟩ => ⟨S32x786432, .f32⟩
  | .hbm, ⟨96, _⟩ => ⟨S64x786432, .f32⟩
  | .hbm, ⟨97, _⟩ => ⟨S786432x64, .f32⟩
  | .hbm, ⟨98, _⟩ => ⟨S16x49152x64, .f32⟩
  | .hbm, ⟨99, _⟩ => ⟨S16x49152x64, .f32⟩
  | .hbm, ⟨100, _⟩ => ⟨S16x49152x64, .f32⟩
  | .hbm, ⟨101, _⟩ => ⟨S_, .f32⟩
  | .hbm, ⟨102, _⟩ => ⟨S16x49152x64, .f32⟩
  | .hbm, ⟨103, _⟩ => ⟨S16x49152x64, .f32⟩
  | _, _ => ⟨S16x49152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call0_cst : Ref sig .tc := ⟨.hbm, 101, rfl⟩
abbrev main_call0_v0 : Ref sig .tc := ⟨.hbm, 102, rfl⟩
abbrev main_v79 : Ref sig .tc := ⟨.hbm, 103, rfl⟩

abbrev nD : Nat := 1
abbrev τ : Topo := Topo.v7x

variable {F : FTy → Type} [FloatOps F]

class Facts₀ : Prop where
  transposes_S16x49152x32_S49152x16x32_1_0_2 : S16x49152x32.Transposes [1, 0, 2] S49152x16x32
  shapeCasts_S49152x16x32_S49152x512 : S49152x16x32.ShapeCasts S49152x512
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x512_0_1 : S393216x1.BroadcastsInDim S393216x512 (![0, 1] : Fin 2 → Fin S393216x512.rank)
  bcast_S_S49152x512 : S_.BroadcastsInDim S49152x512 (![] : Fin 0 → Fin S49152x512.rank)
  bcast_S49152x512_S1x49152x512_1_2 : S49152x512.BroadcastsInDim S1x49152x512 (![1, 2] : Fin 2 → Fin S1x49152x512.rank)
  concatenates_S1x49152x512_S1x49152x512_S1x49152x512_S1x49152x512_S1x49152x512_S5x49152x512_d0 : Shape.Concatenates [S1x49152x512, S1x49152x512, S1x49152x512, S1x49152x512, S1x49152x512] S5x49152x512 0
  shapeCasts_S5x49152x512_S5x49152x16x32 : S5x49152x512.ShapeCasts S5x49152x16x32
  transposes_S5x49152x16x32_S32x5x16x49152_3_0_2_1 : S5x49152x16x32.Transposes [3, 0, 2, 1] S32x5x16x49152
  shapeCasts_S32x5x16x49152_S32x5x786432 : S32x5x16x49152.ShapeCasts S32x5x786432
  shapeCasts_S32x1x786432_S32x786432 : S32x1x786432.ShapeCasts S32x786432
  transposes_S64x786432_S786432x64_1_0 : S64x786432.Transposes [1, 0] S786432x64
  shapeCasts_S786432x64_S16x49152x64 : S786432x64.ShapeCasts S16x49152x64
  bcast_S1x1x64_S16x49152x64_0_1_2 : S1x1x64.BroadcastsInDim S16x49152x64 (![0, 1, 2] : Fin 3 → Fin S16x49152x64.rank)
  bcast_S_S16x49152x64 : S_.BroadcastsInDim S16x49152x64 (![] : Fin 0 → Fin S16x49152x64.rank)
  gather_S49152x512_S393216x1_S393216x512_1_0_n_n_0_1_1512_wf : GatherDims.WF S49152x512 S393216x1 S393216x512 [1] [0] [] [0] [] 1 ![1, 512]
  scatter_S49152x512_S393216x1_S393216x512_1_0_0_1_wf : ScatterDims.WF S49152x512 S393216x1 S393216x512 [1] [0] [0] 1
  dot_S32x1x5_S32x5x786432_S32x1x786432_2_1_1_2_0_0_wf : DotDims.WF S32x1x5 S32x5x786432 S32x1x786432 [2] [1] [1] [2] [0] [0]
  dot_S64x32_S32x786432_S64x786432_1_0_0_1_n_n_wf : DotDims.WF S64x32 S32x786432 S64x786432 [1] [0] [0] [1] [] []

variable [Facts₀]

def gather_S49152x512_S393216x1_S393216x512_1_0_n_n_0_1_1512 : GatherDims S49152x512 S393216x1 S393216x512 where
  offsetDims := [1]
  collapsedSliceDims := [0]
  operandBatchingDims := []
  startIndicesBatchingDims := []
  startIndexMap := [0]
  indexVectorDim := 1
  sliceSizes := ![1, 512]
  wf := gather_S49152x512_S393216x1_S393216x512_1_0_n_n_0_1_1512_wf
def scatter_S49152x512_S393216x1_S393216x512_1_0_0_1 : ScatterDims S49152x512 S393216x1 S393216x512 where
  updateWindowDims := [1]
  insertedWindowDims := [0]
  scatterDimsToOperandDims := [0]
  indexVectorDim := 1
  wf := scatter_S49152x512_S393216x1_S393216x512_1_0_0_1_wf
def dot_S32x1x5_S32x5x786432_S32x1x786432_2_1_1_2_0_0 : DotDims S32x1x5 S32x5x786432 S32x1x786432 where
  lhsContracting := [2]
  rhsContracting := [1]
  lhsNonContracting := [1]
  rhsNonContracting := [2]
  lhsBatch := [0]
  rhsBatch := [0]
  wf := dot_S32x1x5_S32x5x786432_S32x1x786432_2_1_1_2_0_0_wf
def dot_S64x32_S32x786432_S64x786432_1_0_0_1_n_n : DotDims S64x32 S32x786432 S64x786432 where
  lhsContracting := [1]
  rhsContracting := [0]
  lhsNonContracting := [0]
  rhsNonContracting := [1]
  lhsBatch := []
  rhsBatch := []
  wf := dot_S64x32_S32x786432_S64x786432_1_0_0_1_n_n_wf

class Facts : Prop extends Facts₀ where

variable [Facts]
-- ==== Proof.FrameBits.lean ====
/-
  The frame of the kernel program: its entry function is a stretch of host operations followed by one pipelined
  region and nothing else. The host stretch writes only its own results, so every argument array reaches the region
  as launched; the region's body reads its seven input blocks and overwrites its whole output block with one store;
  the pipeline's run then leaves every argument array as it was.
-/
import proofs.«157191_j24421184045264_2_alg».proof.Proof.Gen.Kernel.Launch
import proofs.«157191_j24421184045264_2_alg».proof.Proof.Gen.Kernel.Skeleton
import proofs.«157191_j24421184045264_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function up to the region -/

/-- What core `c`'s buffers hold when the region is entered: the launch memory pushed through the host stretch. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The entry function is the host stretch and then the region, entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0` (each writes only its own fresh result), so the
    region finds that argument exactly as the launch supplied it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg1` (each writes only its own fresh result), so the
    region finds that argument exactly as the launch supplied it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg2` (each writes only its own fresh result), so the
    region finds that argument exactly as the launch supplied it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg3` (each writes only its own fresh result), so the
    region finds that argument exactly as the launch supplied it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg4` (each writes only its own fresh result), so the
    region finds that argument exactly as the launch supplied it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg5` (each writes only its own fresh result), so the
    region finds that argument exactly as the launch supplied it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg6` (each writes only its own fresh result), so the
    region finds that argument exactly as the launch supplied it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at grid point `t`: the part of its array, as the region finds it, that its index map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: whatever proof data has `V`'s array there and a body leaving the block in place, the current
    staging buffer holds that point's block — at a fetching point because it was just fetched, elsewhere because the
    block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: whatever proof data has `V`'s array there and a body leaving the block in place, the current
    staging buffer holds that point's block — at a fetching point because it was just fetched, elsewhere because the
    block index has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: whatever proof data has `V`'s array there and a body leaving the block in place, the current
    staging buffer holds that point's block — at a fetching point because it was just fetched, elsewhere because the
    block index has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: whatever proof data has `V`'s array there and a body leaving the block in place, the current
    staging buffer holds that point's block — at a fetching point because it was just fetched, elsewhere because the
    block index has not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: whatever proof data has `V`'s array there and a body leaving the block in place, the current
    staging buffer holds that point's block — at a fetching point because it was just fetched, elsewhere because the
    block index has not moved since the last fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5: whatever proof data has `V`'s array there and a body leaving the block in place, the current
    staging buffer holds that point's block — at a fetching point because it was just fetched, elsewhere because the
    block index has not moved since the last fetch. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6: whatever proof data has `V`'s array there and a body leaving the block in place, the current
    staging buffer holds that point's block — at a fetching point because it was just fetched, elsewhere because the
    block index has not moved since the last fetch. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's final state to the arguments -/

/-- Any run ending in the pipeline's final-state description gives the frame: the first argument is window 0's array,
    an input, which the pipeline only reads; the other six are staged by no window and are left as the region found
    them; and the region found all seven as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The rectangles the body reads and writes through -/

/-- A whole input block. -/
abbrev r_in : Rect S1x2048x32 := Rect.unit (s := S1x2048x32) ![0, 0, 0] S1x2048x32.size inb_S1x2048x32_S1x2048x32_0_0_0
/-- The five weight matrices, one leading index each of the stacked array. -/
abbrev r_w0 : Rect S5x32x64 := Rect.unit (s := S5x32x64) ![0, 0, 0] S1x32x64.size inb_S5x32x64_S1x32x64_0_0_0
abbrev r_w1 : Rect S5x32x64 := Rect.unit (s := S5x32x64) ![1, 0, 0] S1x32x64.size inb_S5x32x64_S1x32x64_1_0_0
abbrev r_w2 : Rect S5x32x64 := Rect.unit (s := S5x32x64) ![2, 0, 0] S1x32x64.size inb_S5x32x64_S1x32x64_2_0_0
abbrev r_w3 : Rect S5x32x64 := Rect.unit (s := S5x32x64) ![3, 0, 0] S1x32x64.size inb_S5x32x64_S1x32x64_3_0_0
abbrev r_w4 : Rect S5x32x64 := Rect.unit (s := S5x32x64) ![4, 0, 0] S1x32x64.size inb_S5x32x64_S1x32x64_4_0_0
/-- The whole bias vector. -/
abbrev r_b : Rect S64 := Rect.unit (s := S64) ![0] S64.size inb_S64_S64_0
/-- The whole output block. -/
abbrev r_out : Rect S1x2048x64 := Rect.unit (s := S1x2048x64) ![0, 0, 0] S1x2048x64.size inb_S1x2048x64_S1x2048x64_0_0_0

/-! ## What the body leaves in the output window's buffer -/

/-- The output block after the body, as a function of the seven input blocks: the one store's payload — the sum of
    the five products block·weight plus the bias, clamped below at zero — laid over the whole block. -/
def out0_7 (x0 x1 x2 x3 x4 : Vec F S1x2048x32 .f32) (x5 : Vec F S5x32x64 .f32) (x6 : Vec F S64 .f32) : Vec F S1x2048x64 .f32 :=
  View.canon [⟨r_out, k0_pay1 (k0_pay2 (View.ld x0 r_in) (View.ld x5 r_w0) (View.ld x1 r_in) (View.ld x5 r_w1) (View.ld x2 r_in) (View.ld x5 r_w2))
    (k0_pay3 (View.ld x3 r_in)) (k0_pay4 (View.ld x5 r_w3)) (View.ld x4 r_in) (View.ld x5 r_w4) (View.ld x6 r_b)⟩]

/-- The one store's rectangle is the whole block, so every index of the block lies in it. -/
theorem cover0_7 (p0 : Vec F S1x2048x64 .f32) (y : S1x2048x64.Idx) :
    ∃ pc ∈ ([⟨r_out, p0⟩] : List (View.Piece (Elt F) S1x2048x64 .f32)), y ∈ pc.1.set :=
  View.cover_of_tiled [⟨r_out, p0⟩] S1x2048x64.size (by rfl) y

/-! ## The body's triple -/

set_option maxHeartbeats 4000000 in
/-- The body, given its seven input buffers at contents `x0 … x6` and its output buffer at anything, returns the
    inputs untouched and the output buffer at `out0_7` of them: it only loads, computes, and stores once over the
    whole output block (the load of the output buffer before the store reads a value nothing uses). -/
theorem sound_kernel (c : Dev nD) (E : Set ℕ) (i : grid0.Coords) (arg2 : Memref sig .tc .vmem S1x2048x32 .f32) (harg2 : arg2.IsWhole) (arg3 : Memref sig .tc .vmem S1x2048x32 .f32) (harg3 : arg3.IsWhole) (arg4 : Memref sig .tc .vmem S1x2048x32 .f32) (harg4 : arg4.IsWhole) (arg5 : Memref sig .tc .vmem S1x2048x32 .f32) (harg5 : arg5.IsWhole) (arg6 : Memref sig .tc .vmem S1x2048x32 .f32) (harg6 : arg6.IsWhole) (arg7 : Memref sig .tc .vmem S5x32x64 .f32) (harg7 : arg7.IsWhole) (arg8 : Memref sig .tc .vmem S64 .f32) (harg8 : arg8.IsWhole) (arg9 : Memref sig .tc .vmem S1x2048x64 .f32) (harg9 : arg9.IsWhole)
    (x0 x1 x2 x3 x4 : Vec F S1x2048x32 .f32) (x5 : Vec F S5x32x64 .f32) (x6 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- On core `c`: the arrays are what the region finds; after the body at point `t` each input buffer still holds its
    block and the output buffer holds `out0_7` of the seven blocks; the invariant is the untouched remainder of the
    core's state; nothing is owed between points; every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents, by projection alone (the fold over the host stretch is
    never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation at a generic point -/

/-- What the body is handed at point `t`: the invariant, the debts, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it must hand back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: every input buffer holds its block, so the body's triple applies with the blocks as the
    read contents; the invariant and the debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the entry function on the cores
    terminates, and at the end every array of the pipeline holds what the proof data computes and every other
    unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to completion and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.FrameIdeal.lean ====
/-
  The frame of the kernel program: its entry function is a stretch of host operations followed by one pipelined
  region and nothing else. The host stretch writes only its own results, so every argument array reaches the region
  as launched; the region's body reads its seven input blocks and overwrites its whole output block with one store;
  the pipeline's run then leaves every argument array as it was.
-/
import proofs.«157191_j24421184045264_2_alg».proof.Proof.Gen.KernelIdeal.Launch
import proofs.«157191_j24421184045264_2_alg».proof.Proof.Gen.KernelIdeal.Skeleton
import proofs.«157191_j24421184045264_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function up to the region -/

/-- What core `c`'s buffers hold when the region is entered: the launch memory pushed through the host stretch. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The entry function is the host stretch and then the region, entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0` (each writes only its own fresh result), so the
    region finds that argument exactly as the launch supplied it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg1` (each writes only its own fresh result), so the
    region finds that argument exactly as the launch supplied it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg2` (each writes only its own fresh result), so the
    region finds that argument exactly as the launch supplied it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg3` (each writes only its own fresh result), so the
    region finds that argument exactly as the launch supplied it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg4` (each writes only its own fresh result), so the
    region finds that argument exactly as the launch supplied it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg5` (each writes only its own fresh result), so the
    region finds that argument exactly as the launch supplied it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg6` (each writes only its own fresh result), so the
    region finds that argument exactly as the launch supplied it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at grid point `t`: the part of its array, as the region finds it, that its index map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: whatever proof data has `V`'s array there and a body leaving the block in place, the current
    staging buffer holds that point's block — at a fetching point because it was just fetched, elsewhere because the
    block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: whatever proof data has `V`'s array there and a body leaving the block in place, the current
    staging buffer holds that point's block — at a fetching point because it was just fetched, elsewhere because the
    block index has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: whatever proof data has `V`'s array there and a body leaving the block in place, the current
    staging buffer holds that point's block — at a fetching point because it was just fetched, elsewhere because the
    block index has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: whatever proof data has `V`'s array there and a body leaving the block in place, the current
    staging buffer holds that point's block — at a fetching point because it was just fetched, elsewhere because the
    block index has not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: whatever proof data has `V`'s array there and a body leaving the block in place, the current
    staging buffer holds that point's block — at a fetching point because it was just fetched, elsewhere because the
    block index has not moved since the last fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5: whatever proof data has `V`'s array there and a body leaving the block in place, the current
    staging buffer holds that point's block — at a fetching point because it was just fetched, elsewhere because the
    block index has not moved since the last fetch. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6: whatever proof data has `V`'s array there and a body leaving the block in place, the current
    staging buffer holds that point's block — at a fetching point because it was just fetched, elsewhere because the
    block index has not moved since the last fetch. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's final state to the arguments -/

/-- Any run ending in the pipeline's final-state description gives the frame: the first argument is window 0's array,
    an input, which the pipeline only reads; the other six are staged by no window and are left as the region found
    them; and the region found all seven as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The rectangles the body reads and writes through -/

/-- A whole input block. -/
abbrev r_in : Rect S1x2048x32 := Rect.unit (s := S1x2048x32) ![0, 0, 0] S1x2048x32.size inb_S1x2048x32_S1x2048x32_0_0_0
/-- The five weight matrices, one leading index each of the stacked array. -/
abbrev r_w0 : Rect S5x32x64 := Rect.unit (s := S5x32x64) ![0, 0, 0] S1x32x64.size inb_S5x32x64_S1x32x64_0_0_0
abbrev r_w1 : Rect S5x32x64 := Rect.unit (s := S5x32x64) ![1, 0, 0] S1x32x64.size inb_S5x32x64_S1x32x64_1_0_0
abbrev r_w2 : Rect S5x32x64 := Rect.unit (s := S5x32x64) ![2, 0, 0] S1x32x64.size inb_S5x32x64_S1x32x64_2_0_0
abbrev r_w3 : Rect S5x32x64 := Rect.unit (s := S5x32x64) ![3, 0, 0] S1x32x64.size inb_S5x32x64_S1x32x64_3_0_0
abbrev r_w4 : Rect S5x32x64 := Rect.unit (s := S5x32x64) ![4, 0, 0] S1x32x64.size inb_S5x32x64_S1x32x64_4_0_0
/-- The whole bias vector. -/
abbrev r_b : Rect S64 := Rect.unit (s := S64) ![0] S64.size inb_S64_S64_0
/-- The whole output block. -/
abbrev r_out : Rect S1x2048x64 := Rect.unit (s := S1x2048x64) ![0, 0, 0] S1x2048x64.size inb_S1x2048x64_S1x2048x64_0_0_0

/-! ## What the body leaves in the output window's buffer -/

/-- The output block after the body, as a function of the seven input blocks: the one store's payload — the sum of
    the five products block·weight plus the bias, clamped below at zero — laid over the whole block. -/
def out0_7 (x0 x1 x2 x3 x4 : Vec F S1x2048x32 .f32) (x5 : Vec F S5x32x64 .f32) (x6 : Vec F S64 .f32) : Vec F S1x2048x64 .f32 :=
  View.canon [⟨r_out, k0_pay1 (k0_pay2 (View.ld x0 r_in) (View.ld x5 r_w0) (View.ld x1 r_in) (View.ld x5 r_w1) (View.ld x2 r_in) (View.ld x5 r_w2))
    (k0_pay3 (View.ld x3 r_in)) (k0_pay4 (View.ld x5 r_w3)) (View.ld x4 r_in) (View.ld x5 r_w4) (View.ld x6 r_b)⟩]

/-- The one store's rectangle is the whole block, so every index of the block lies in it. -/
theorem cover0_7 (p0 : Vec F S1x2048x64 .f32) (y : S1x2048x64.Idx) :
    ∃ pc ∈ ([⟨r_out, p0⟩] : List (View.Piece (Elt F) S1x2048x64 .f32)), y ∈ pc.1.set :=
  View.cover_of_tiled [⟨r_out, p0⟩] S1x2048x64.size (by rfl) y

/-! ## The body's triple -/

set_option maxHeartbeats 4000000 in
/-- The body, given its seven input buffers at contents `x0 … x6` and its output buffer at anything, returns the
    inputs untouched and the output buffer at `out0_7` of them: it only loads, computes, and stores once over the
    whole output block (the load of the output buffer before the store reads a value nothing uses). -/
theorem sound_kernel (c : Dev nD) (E : Set ℕ) (i : grid0.Coords) (arg2 : Memref sig .tc .vmem S1x2048x32 .f32) (harg2 : arg2.IsWhole) (arg3 : Memref sig .tc .vmem S1x2048x32 .f32) (harg3 : arg3.IsWhole) (arg4 : Memref sig .tc .vmem S1x2048x32 .f32) (harg4 : arg4.IsWhole) (arg5 : Memref sig .tc .vmem S1x2048x32 .f32) (harg5 : arg5.IsWhole) (arg6 : Memref sig .tc .vmem S1x2048x32 .f32) (harg6 : arg6.IsWhole) (arg7 : Memref sig .tc .vmem S5x32x64 .f32) (harg7 : arg7.IsWhole) (arg8 : Memref sig .tc .vmem S64 .f32) (harg8 : arg8.IsWhole) (arg9 : Memref sig .tc .vmem S1x2048x64 .f32) (harg9 : arg9.IsWhole)
    (x0 x1 x2 x3 x4 : Vec F S1x2048x32 .f32) (x5 : Vec F S5x32x64 .f32) (x6 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- On core `c`: the arrays are what the region finds; after the body at point `t` each input buffer still holds its
    block and the output buffer holds `out0_7` of the seven blocks; the invariant is the untouched remainder of the
    core's state; nothing is owed between points; every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents, by projection alone (the fold over the host stretch is
    never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation at a generic point -/

/-- What the body is handed at point `t`: the invariant, the debts, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it must hand back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: every input buffer holds its block, so the body's triple applies with the blocks as the
    read contents; the invariant and the debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the entry function on the cores
    terminates, and at the end every array of the pipeline holds what the proof data computes and every other
    unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to completion and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.KernelBody.lean ====
/-
  What one grid point's body stores, entry by entry, at the ideal values.

  The body multiplies each of the five [2048, 32] input blocks (the Chebyshev terms' rows of one batch) by the
  matching [32, 64] slab of the stacked filter, adds the five products one after the other starting from the zero
  splat, adds the bias row to every row and keeps the maximum with zero. A change of float format is the identity at
  the ideal values and each product, accumulated into the zero splat, is the plain sum over the 32 channels. So
  entry (r, o) of the stored block is
    max (((((0 + Σ_f x0[r,f]·w[0,f,o]) + Σ_f x1[r,f]·w[1,f,o]) + … ) + Σ_f x4[r,f]·w[4,f,o]) + b[o]) 0.
-/
import proofs.«157191_j24421184045264_2_alg».proof.Proof.Gen.KernelIdeal.Skeleton
import proofs.«157191_j24421184045264_2_alg».proof.Proof.LibRowColDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The left operand of the product is read at the output's row. -/
theorem dot_row (j : S2048x64.Idx) (q : dot_S2048x32_S32x64_S2048x64_1_0_0_1_n_n.contr.Idx) :
    (dot_S2048x32_S32x64_S2048x64_1_0_0_1_n_n.lhsIdx j q 0).val = (j 0).val := by
  unfold DotDims.lhsIdx
  rw [dif_neg (show ¬(0 : Fin S2048x32.rank) ∈ dot_S2048x32_S32x64_S2048x64_1_0_0_1_n_n.lhsBatch by decide),
    dif_pos (show (0 : Fin S2048x32.rank) ∈ dot_S2048x32_S32x64_S2048x64_1_0_0_1_n_n.lhsNonContracting by decide)]
  rfl

/-- The right operand of the product is read at the output's column. -/
theorem dot_col (j : S2048x64.Idx) (q : dot_S2048x32_S32x64_S2048x64_1_0_0_1_n_n.contr.Idx) :
    (dot_S2048x32_S32x64_S2048x64_1_0_0_1_n_n.rhsIdx j q 1).val = (j 1).val := by
  unfold DotDims.rhsIdx
  rw [dif_neg (show ¬(1 : Fin S32x64.rank) ∈ dot_S2048x32_S32x64_S2048x64_1_0_0_1_n_n.rhsBatch by decide),
    dif_pos (show (1 : Fin S32x64.rank) ∈ dot_S2048x32_S32x64_S2048x64_1_0_0_1_n_n.rhsNonContracting by decide)]
  rfl

/-- One product of the body, entry (r, o): the sum over the 32 channels of block row r times slab column o. -/
theorem product_apply (x : Vec Ideal S1x2048x32 .f32) (w : Vec Ideal S1x32x64 .f32) (r : Fin 2048) (o : Fin 64) :
    matmul (F := Ideal) dot_S2048x32_S32x64_S2048x64_1_0_0_1_n_n none
        (truncf .bf16 (shapeCast S2048x32 x shapeCasts_S1x2048x32_S2048x32) bitsLt_bf16_f32)
        (truncf .bf16 (shapeCast S32x64 w shapeCasts_S1x32x64_S32x64) bitsLt_bf16_f32)
        (constant (F := Ideal) S2048x64 .f32 0x00000000#32) (ix2 r o)
      = ∑ f : Fin 32, x (ix3 (0 : Fin 1) r f) * w (ix3 (0 : Fin 1) f o) := by
  rw [Cert.RowColDot.matmul_rowcol dot_S2048x32_S32x64_S2048x64_1_0_0_1_n_n rfl rfl rfl rfl dot_row dot_col]
  refine Finset.sum_congr rfl fun f _ => ?_
  show shapeCast S2048x32 x shapeCasts_S1x2048x32_S2048x32 (ix2 r f)
      * shapeCast S32x64 w shapeCasts_S1x32x64_S32x64 (ix2 f o) = _
  rw [shapeCast_1ab_ab_apply, shapeCast_1ab_ab_apply]

/-- The stored block of one grid point, entry (r, o). -/
theorem stored_apply (x0 x1 x2 x3 x4 : Vec Ideal S1x2048x32 .f32) (w0 w1 w2 w3 w4 : Vec Ideal S1x32x64 .f32)
    (b : Vec Ideal S64 .f32) (u : Fin 1) (r : Fin 2048) (o : Fin 64) :
    k0_pay1 (k0_pay2 x0 w0 x1 w1 x2 w2) (k0_pay3 x3) (k0_pay4 w3) x4 w4 b (ix3 u r o)
      = max (((((((Ideal.ofBits .f32 0x00000000#32 : EReal)
            + ∑ f : Fin 32, x0 (ix3 (0 : Fin 1) r f) * w0 (ix3 (0 : Fin 1) f o))
            + ∑ f : Fin 32, x1 (ix3 (0 : Fin 1) r f) * w1 (ix3 (0 : Fin 1) f o))
            + ∑ f : Fin 32, x2 (ix3 (0 : Fin 1) r f) * w2 (ix3 (0 : Fin 1) f o))
            + ∑ f : Fin 32, x3 (ix3 (0 : Fin 1) r f) * w3 (ix3 (0 : Fin 1) f o))
            + ∑ f : Fin 32, x4 (ix3 (0 : Fin 1) r f) * w4 (ix3 (0 : Fin 1) f o))
            + b (ix1 o)) (Ideal.ofBits .f32 0x00000000#32) := by
  unfold k0_pay1 k0_pay2 k0_pay3 k0_pay4
  dsimp only
  refine (shapeCast_ab_1ab_apply _ shapeCasts_S2048x64_S1x2048x64 u r o).trans ?_
  rw [maximumf_apply, addf_apply, addf_apply, addf_apply, addf_apply, addf_apply, addf_apply,
    product_apply, product_apply, product_apply, product_apply, product_apply,
    broadcastTo_1b_ab_apply, shapeCast_a_1a_apply, shapeCast_self]
  rfl

/-- The same at any index of the block. -/
theorem stored_at (x0 x1 x2 x3 x4 : Vec Ideal S1x2048x32 .f32) (w0 w1 w2 w3 w4 : Vec Ideal S1x32x64 .f32)
    (b : Vec Ideal S64 .f32) (j : S1x2048x64.Idx) :
    k0_pay1 (k0_pay2 x0 w0 x1 w1 x2 w2) (k0_pay3 x3) (k0_pay4 w3) x4 w4 b j
      = max (((((((Ideal.ofBits .f32 0x00000000#32 : EReal)
            + ∑ f : Fin 32, x0 (ix3 (0 : Fin 1) (j 1) f) * w0 (ix3 (0 : Fin 1) f (j 2)))
            + ∑ f : Fin 32, x1 (ix3 (0 : Fin 1) (j 1) f) * w1 (ix3 (0 : Fin 1) f (j 2)))
            + ∑ f : Fin 32, x2 (ix3 (0 : Fin 1) (j 1) f) * w2 (ix3 (0 : Fin 1) f (j 2)))
            + ∑ f : Fin 32, x3 (ix3 (0 : Fin 1) (j 1) f) * w3 (ix3 (0 : Fin 1) f (j 2)))
            + ∑ f : Fin 32, x4 (ix3 (0 : Fin 1) (j 1) f) * w4 (ix3 (0 : Fin 1) f (j 2)))
            + b (ix1 (j 2))) (Ideal.ofBits .f32 0x00000000#32) := by
  exact (congrArg (k0_pay1 (k0_pay2 x0 w0 x1 w1 x2 w2) (k0_pay3 x3) (k0_pay4 w3) x4 w4 b) (eq_ix3 j)).trans
    (stored_apply x0 x1 x2 x3 x4 w0 w1 w2 w3 w4 b (j 0) (j 1) (j 2))

end Cert.KernelIdeal.Body

end
-- ==== Proof.KernelValue.lean ====
/-
  From one grid point's stored block to the whole result array, at the ideal values.

  Grid point (n, q) stores rows q·2048 … q·2048 + 2047 of batch n; the 16 × 24 points' blocks tile the
  [16, 49152, 64] result. The five Chebyshev inputs move with the output block, the stacked filter and the bias are
  whole at every point. So the result array is one function of the arrays the region finds: entry (n, m, o) is
     max (((((0 + Σ_f X0[n,m,f]·W[0,f,o]) + Σ_f X1[n,m,f]·W[1,f,o]) + …) + Σ_f X4[n,m,f]·W[4,f,o]) + b[o]) 0.
-/
import proofs.«157191_j24421184045264_2_alg».proof.Proof.FrameIdeal
import proofs.«157191_j24421184045264_2_alg».proof.Proof.KernelBody
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as a function of the seven arrays the region finds. -/
def GK (X0 X1 X2 X3 X4 : S16x49152x32.Idx → EReal) (W : S5x32x64.Idx → EReal) (b : S64.Idx → EReal) :
    S16x49152x64.Idx → EReal := fun i =>
  max (((((((Ideal.ofBits .f32 0x00000000#32 : EReal)
        + ∑ f : Fin 32, X0 (ix3 (i 0) (i 1) f) * W (ix3 (0 : Fin 5) f (i 2)))
        + ∑ f : Fin 32, X1 (ix3 (i 0) (i 1) f) * W (ix3 (1 : Fin 5) f (i 2)))
        + ∑ f : Fin 32, X2 (ix3 (i 0) (i 1) f) * W (ix3 (2 : Fin 5) f (i 2)))
        + ∑ f : Fin 32, X3 (ix3 (i 0) (i 1) f) * W (ix3 (3 : Fin 5) f (i 2)))
        + ∑ f : Fin 32, X4 (ix3 (i 0) (i 1) f) * W (ix3 (4 : Fin 5) f (i 2)))
        + b (ix1 (i 2))) (Ideal.ofBits .f32 0x00000000#32)

theorem hz3 : (![0, 0, 0] : Fin 3 → Nat) = fun _ => 0 := funext fun a => by fin_cases a <;> rfl
theorem hz1 : (![0] : Fin 1 → Nat) = fun _ => 0 := funext fun a => by fin_cases a <;> rfl

/-- The index maps over the grid: each Chebyshev input's block index is the output's on the batch and node axes, and
    every other block index is zero. -/
theorem idx_facts : ∀ t : Fin cfg0.N,
    (win0_0.index t (0 : Fin 3) = win0_7.index t (0 : Fin 3) ∧ win0_0.index t (1 : Fin 3) = win0_7.index t (1 : Fin 3) ∧ win0_0.index t (2 : Fin 3) = 0)
    ∧ (win0_1.index t (0 : Fin 3) = win0_7.index t (0 : Fin 3) ∧ win0_1.index t (1 : Fin 3) = win0_7.index t (1 : Fin 3) ∧ win0_1.index t (2 : Fin 3) = 0)
    ∧ (win0_2.index t (0 : Fin 3) = win0_7.index t (0 : Fin 3) ∧ win0_2.index t (1 : Fin 3) = win0_7.index t (1 : Fin 3) ∧ win0_2.index t (2 : Fin 3) = 0)
    ∧ (win0_3.index t (0 : Fin 3) = win0_7.index t (0 : Fin 3) ∧ win0_3.index t (1 : Fin 3) = win0_7.index t (1 : Fin 3) ∧ win0_3.index t (2 : Fin 3) = 0)
    ∧ (win0_4.index t (0 : Fin 3) = win0_7.index t (0 : Fin 3) ∧ win0_4.index t (1 : Fin 3) = win0_7.index t (1 : Fin 3) ∧ win0_4.index t (2 : Fin 3) = 0)
    ∧ (win0_5.index t (0 : Fin 3) = 0 ∧ win0_5.index t (1 : Fin 3) = 0 ∧ win0_5.index t (2 : Fin 3) = 0)
    ∧ win0_6.index t (0 : Fin 1) = 0
    ∧ win0_7.index t (2 : Fin 3) = 0 ∧ win0_7.index t (0 : Fin 3) < 16 ∧ win0_7.index t (1 : Fin 3) < 24 :=
  (by decide +kernel : ∀ t : Fin grid0.N, _)

/-- The output's block index at grid point t: batch t / 24, row block t % 24. -/
theorem idx_form : ∀ t : Fin cfg0.N, win0_7.index t (0 : Fin 3) = t.val / 24 ∧ win0_7.index t (1 : Fin 3) = t.val % 24
    ∧ win0_7.index t (2 : Fin 3) = 0 :=
  (by decide +kernel : ∀ t : Fin grid0.N, _)

set_option maxHeartbeats 4000000 in
/-- What grid point t writes back is block t of GK of the arrays the region finds. -/
theorem flushed_eq (c : Dev nD) (t : Fin cfg0.N) :
    (dats m 0 c).flushed 7 t = ((cfg0.win 7).blk t).view.read (Elt Ideal)
      (GK (V m c main_arg0) (V m c main_v14) (V m c main_v32) (V m c main_v50) (V m c main_v68) (V m c main_v105) (V m c main_v106)) := by
  show (cfg0.win 7).cut (grid0.coords t) ((dats m 0 c).after 7 t) = _
  rw [after0_7]
  unfold out0_7
  rw [View.canon_unit_zero hz3]
  simp only [View.ld_unit_zero (S := S1x2048x32) hz3, View.ld_unit_zero (S := S64) hz1]
  obtain ⟨⟨a00, a01, a02⟩, ⟨a10, a11, a12⟩, ⟨a20, a21, a22⟩, ⟨a30, a31, a32⟩, ⟨a40, a41, a42⟩, ⟨a50, a51, a52⟩, a60, a72, a70, a71⟩ := idx_facts t
  funext j
  have hj0 : (j 0).val < 1 := (j 0).isLt
  have hj1 : (j 1).val < 2048 := (j 1).isLt
  have hj2 : (j 2).val < 64 := (j 2).isLt
  refine (Cert.KernelIdeal.Body.stored_at (iblk m c 0 t) (iblk m c 1 t) (iblk m c 2 t) (iblk m c 3 t) (iblk m c 4 t)
    (View.ld (iblk m c 5 t) r_w0) (View.ld (iblk m c 5 t) r_w1) (View.ld (iblk m c 5 t) r_w2) (View.ld (iblk m c 5 t) r_w3)
    (View.ld (iblk m c 5 t) r_w4) (iblk m c 6 t) j).trans ?_
  show _ = GK _ _ _ _ _ _ _ (((cfg0.win 7).blk t).view.emb j)
  unfold GK
  have hx0 : ∀ f : Fin 32, iblk m c 0 t (ix3 (0 : Fin 1) (j 1) f) = V m c main_arg0 (ix3 ((((cfg0.win 7).blk t).view.emb j) 0) ((((cfg0.win 7).blk t).view.emb j) 1) f) := fun f => by
    have hf := f.isLt
    show V m c main_arg0 (((cfg0.win 0).blk t).view.emb (ix3 (0 : Fin 1) (j 1) f)) = _
    refine congrArg _ (funext fun a => Fin.ext ?_)
    match a with
    | ⟨0, _⟩ => show win0_0.index t (0 : Fin 3) * 1 + 1 * 0 = win0_7.index t (0 : Fin 3) * 1 + 1 * (j 0).val; omega
    | ⟨1, _⟩ => show win0_0.index t (1 : Fin 3) * 2048 + 1 * (j 1).val = win0_7.index t (1 : Fin 3) * 2048 + 1 * (j 1).val; omega
    | ⟨2, _⟩ => show win0_0.index t (2 : Fin 3) * 32 + 1 * f.val = f.val; omega
  have hx1 : ∀ f : Fin 32, iblk m c 1 t (ix3 (0 : Fin 1) (j 1) f) = V m c main_v14 (ix3 ((((cfg0.win 7).blk t).view.emb j) 0) ((((cfg0.win 7).blk t).view.emb j) 1) f) := fun f => by
    have hf := f.isLt
    show V m c main_v14 (((cfg0.win 1).blk t).view.emb (ix3 (0 : Fin 1) (j 1) f)) = _
    refine congrArg _ (funext fun a => Fin.ext ?_)
    match a with
    | ⟨0, _⟩ => show win0_1.index t (0 : Fin 3) * 1 + 1 * 0 = win0_7.index t (0 : Fin 3) * 1 + 1 * (j 0).val; omega
    | ⟨1, _⟩ => show win0_1.index t (1 : Fin 3) * 2048 + 1 * (j 1).val = win0_7.index t (1 : Fin 3) * 2048 + 1 * (j 1).val; omega
    | ⟨2, _⟩ => show win0_1.index t (2 : Fin 3) * 32 + 1 * f.val = f.val; omega
  have hx2 : ∀ f : Fin 32, iblk m c 2 t (ix3 (0 : Fin 1) (j 1) f) = V m c main_v32 (ix3 ((((cfg0.win 7).blk t).view.emb j) 0) ((((cfg0.win 7).blk t).view.emb j) 1) f) := fun f => by
    have hf := f.isLt
    show V m c main_v32 (((cfg0.win 2).blk t).view.emb (ix3 (0 : Fin 1) (j 1) f)) = _
    refine congrArg _ (funext fun a => Fin.ext ?_)
    match a with
    | ⟨0, _⟩ => show win0_2.index t (0 : Fin 3) * 1 + 1 * 0 = win0_7.index t (0 : Fin 3) * 1 + 1 * (j 0).val; omega
    | ⟨1, _⟩ => show win0_2.index t (1 : Fin 3) * 2048 + 1 * (j 1).val = win0_7.index t (1 : Fin 3) * 2048 + 1 * (j 1).val; omega
    | ⟨2, _⟩ => show win0_2.index t (2 : Fin 3) * 32 + 1 * f.val = f.val; omega
  have hx3 : ∀ f : Fin 32, iblk m c 3 t (ix3 (0 : Fin 1) (j 1) f) = V m c main_v50 (ix3 ((((cfg0.win 7).blk t).view.emb j) 0) ((((cfg0.win 7).blk t).view.emb j) 1) f) := fun f => by
    have hf := f.isLt
    show V m c main_v50 (((cfg0.win 3).blk t).view.emb (ix3 (0 : Fin 1) (j 1) f)) = _
    refine congrArg _ (funext fun a => Fin.ext ?_)
    match a with
    | ⟨0, _⟩ => show win0_3.index t (0 : Fin 3) * 1 + 1 * 0 = win0_7.index t (0 : Fin 3) * 1 + 1 * (j 0).val; omega
    | ⟨1, _⟩ => show win0_3.index t (1 : Fin 3) * 2048 + 1 * (j 1).val = win0_7.index t (1 : Fin 3) * 2048 + 1 * (j 1).val; omega
    | ⟨2, _⟩ => show win0_3.index t (2 : Fin 3) * 32 + 1 * f.val = f.val; omega
  have hx4 : ∀ f : Fin 32, iblk m c 4 t (ix3 (0 : Fin 1) (j 1) f) = V m c main_v68 (ix3 ((((cfg0.win 7).blk t).view.emb j) 0) ((((cfg0.win 7).blk t).view.emb j) 1) f) := fun f => by
    have hf := f.isLt
    show V m c main_v68 (((cfg0.win 4).blk t).view.emb (ix3 (0 : Fin 1) (j 1) f)) = _
    refine congrArg _ (funext fun a => Fin.ext ?_)
    match a with
    | ⟨0, _⟩ => show win0_4.index t (0 : Fin 3) * 1 + 1 * 0 = win0_7.index t (0 : Fin 3) * 1 + 1 * (j 0).val; omega
    | ⟨1, _⟩ => show win0_4.index t (1 : Fin 3) * 2048 + 1 * (j 1).val = win0_7.index t (1 : Fin 3) * 2048 + 1 * (j 1).val; omega
    | ⟨2, _⟩ => show win0_4.index t (2 : Fin 3) * 32 + 1 * f.val = f.val; omega
  have hw0 : ∀ f : Fin 32, View.ld (iblk m c 5 t) r_w0 (ix3 (0 : Fin 1) f (j 2)) = V m c main_v105 (ix3 (0 : Fin 5) f ((((cfg0.win 7).blk t).view.emb j) 2)) := fun f => by
    have hf := f.isLt
    show V m c main_v105 (((cfg0.win 5).blk t).view.emb (r_w0.idx (ix3 (0 : Fin 1) f (j 2)))) = _
    refine congrArg _ (funext fun a => Fin.ext ?_)
    match a with
    | ⟨0, _⟩ => show win0_5.index t (0 : Fin 3) * 5 + 1 * (0 + 1 * 0) = 0; omega
    | ⟨1, _⟩ => show win0_5.index t (1 : Fin 3) * 32 + 1 * (0 + 1 * f.val) = f.val; omega
    | ⟨2, _⟩ => show win0_5.index t (2 : Fin 3) * 64 + 1 * (0 + 1 * (j 2).val) = win0_7.index t (2 : Fin 3) * 64 + 1 * (j 2).val; omega
  have hw1 : ∀ f : Fin 32, View.ld (iblk m c 5 t) r_w1 (ix3 (0 : Fin 1) f (j 2)) = V m c main_v105 (ix3 (1 : Fin 5) f ((((cfg0.win 7).blk t).view.emb j) 2)) := fun f => by
    have hf := f.isLt
    show V m c main_v105 (((cfg0.win 5).blk t).view.emb (r_w1.idx (ix3 (0 : Fin 1) f (j 2)))) = _
    refine congrArg _ (funext fun a => Fin.ext ?_)
    match a with
    | ⟨0, _⟩ => show win0_5.index t (0 : Fin 3) * 5 + 1 * (1 + 1 * 0) = 1; omega
    | ⟨1, _⟩ => show win0_5.index t (1 : Fin 3) * 32 + 1 * (0 + 1 * f.val) = f.val; omega
    | ⟨2, _⟩ => show win0_5.index t (2 : Fin 3) * 64 + 1 * (0 + 1 * (j 2).val) = win0_7.index t (2 : Fin 3) * 64 + 1 * (j 2).val; omega
  have hw2 : ∀ f : Fin 32, View.ld (iblk m c 5 t) r_w2 (ix3 (0 : Fin 1) f (j 2)) = V m c main_v105 (ix3 (2 : Fin 5) f ((((cfg0.win 7).blk t).view.emb j) 2)) := fun f => by
    have hf := f.isLt
    show V m c main_v105 (((cfg0.win 5).blk t).view.emb (r_w2.idx (ix3 (0 : Fin 1) f (j 2)))) = _
    refine congrArg _ (funext fun a => Fin.ext ?_)
    match a with
    | ⟨0, _⟩ => show win0_5.index t (0 : Fin 3) * 5 + 1 * (2 + 1 * 0) = 2; omega
    | ⟨1, _⟩ => show win0_5.index t (1 : Fin 3) * 32 + 1 * (0 + 1 * f.val) = f.val; omega
    | ⟨2, _⟩ => show win0_5.index t (2 : Fin 3) * 64 + 1 * (0 + 1 * (j 2).val) = win0_7.index t (2 : Fin 3) * 64 + 1 * (j 2).val; omega
  have hw3 : ∀ f : Fin 32, View.ld (iblk m c 5 t) r_w3 (ix3 (0 : Fin 1) f (j 2)) = V m c main_v105 (ix3 (3 : Fin 5) f ((((cfg0.win 7).blk t).view.emb j) 2)) := fun f => by
    have hf := f.isLt
    show V m c main_v105 (((cfg0.win 5).blk t).view.emb (r_w3.idx (ix3 (0 : Fin 1) f (j 2)))) = _
    refine congrArg _ (funext fun a => Fin.ext ?_)
    match a with
    | ⟨0, _⟩ => show win0_5.index t (0 : Fin 3) * 5 + 1 * (3 + 1 * 0) = 3; omega
    | ⟨1, _⟩ => show win0_5.index t (1 : Fin 3) * 32 + 1 * (0 + 1 * f.val) = f.val; omega
    | ⟨2, _⟩ => show win0_5.index t (2 : Fin 3) * 64 + 1 * (0 + 1 * (j 2).val) = win0_7.index t (2 : Fin 3) * 64 + 1 * (j 2).val; omega
  have hw4 : ∀ f : Fin 32, View.ld (iblk m c 5 t) r_w4 (ix3 (0 : Fin 1) f (j 2)) = V m c main_v105 (ix3 (4 : Fin 5) f ((((cfg0.win 7).blk t).view.emb j) 2)) := fun f => by
    have hf := f.isLt
    show V m c main_v105 (((cfg0.win 5).blk t).view.emb (r_w4.idx (ix3 (0 : Fin 1) f (j 2)))) = _
    refine congrArg _ (funext fun a => Fin.ext ?_)
    match a with
    | ⟨0, _⟩ => show win0_5.index t (0 : Fin 3) * 5 + 1 * (4 + 1 * 0) = 4; omega
    | ⟨1, _⟩ => show win0_5.index t (1 : Fin 3) * 32 + 1 * (0 + 1 * f.val) = f.val; omega
    | ⟨2, _⟩ => show win0_5.index t (2 : Fin 3) * 64 + 1 * (0 + 1 * (j 2).val) = win0_7.index t (2 : Fin 3) * 64 + 1 * (j 2).val; omega
  have hb : iblk m c 6 t (ix1 (j 2)) = V m c main_v106 (ix1 ((((cfg0.win 7).blk t).view.emb j) 2)) := by
    show V m c main_v106 (((cfg0.win 6).blk t).view.emb (ix1 (j 2))) = _
    refine congrArg _ (funext fun a => Fin.ext ?_)
    match a with
    | ⟨0, _⟩ => show win0_6.index t (0 : Fin 1) * 64 + 1 * (j 2).val = win0_7.index t (2 : Fin 3) * 64 + 1 * (j 2).val; omega
  simp only [hx0, hx1, hx2, hx3, hx4, hw0, hw1, hw2, hw3, hw4, hb]

/-- An index of the result is in grid point t's block iff each coordinate is in the block's range. -/
theorem mem_blk (t : Fin cfg0.N) (i : S16x49152x64.Idx) :
    i ∈ ((cfg0.win 7).blk t).view.set ↔ ∀ a : Fin 3, win0_7.index t a * S1x2048x64.size a ≤ (i a).val
      ∧ (i a).val < win0_7.index t a * S1x2048x64.size a + S1x2048x64.size a := by
  show i ∈ ((View.whole main_v107).slice (win0_7.rect t)).set ↔ _
  rw [View.set_slice_whole, Rect.mem_set_unit]
  exact Iff.rfl

/-- The blocks tile the result: entry (n, m, o) is in the block of grid point n·24 + m / 2048. -/
theorem cover (i : S16x49152x64.Idx) :
    ∃ t : Fin cfg0.N, (cfg0.win 7).flush t = true ∧ i ∈ ((cfg0.win 7).blk t).view.set := by
  have hi0 : (i 0).val < 16 := (i 0).isLt
  have hi1 : (i 1).val < 49152 := (i 1).isLt
  have hi2 : (i 2).val < 64 := (i 2).isLt
  have hN : cfg0.N = 384 := N_0
  have ht : (i 0).val * 24 + (i 1).val / 2048 < cfg0.N := by rw [hN]; omega
  obtain ⟨f0, f1, f2⟩ := idx_form ⟨(i 0).val * 24 + (i 1).val / 2048, ht⟩
  have e0 : ((i 0).val * 24 + (i 1).val / 2048) / 24 = (i 0).val := by omega
  have e1 : ((i 0).val * 24 + (i 1).val / 2048) % 24 = (i 1).val / 2048 := by omega
  refine ⟨⟨(i 0).val * 24 + (i 1).val / 2048, ht⟩, flush0_7 _, ?_⟩
  rw [mem_blk]
  intro a
  match a with
  | ⟨0, _⟩ =>
    show win0_7.index ⟨(i 0).val * 24 + (i 1).val / 2048, ht⟩ (0 : Fin 3) * 1 ≤ (i 0).val
      ∧ (i 0).val < win0_7.index ⟨(i 0).val * 24 + (i 1).val / 2048, ht⟩ (0 : Fin 3) * 1 + 1
    rw [f0]; show ((i 0).val * 24 + (i 1).val / 2048) / 24 * 1 ≤ _ ∧ _ < ((i 0).val * 24 + (i 1).val / 2048) / 24 * 1 + 1
    rw [e0]; omega
  | ⟨1, _⟩ =>
    show win0_7.index ⟨(i 0).val * 24 + (i 1).val / 2048, ht⟩ (1 : Fin 3) * 2048 ≤ (i 1).val
      ∧ (i 1).val < win0_7.index ⟨(i 0).val * 24 + (i 1).val / 2048, ht⟩ (1 : Fin 3) * 2048 + 2048
    rw [f1]; show ((i 0).val * 24 + (i 1).val / 2048) % 24 * 2048 ≤ _ ∧ _ < ((i 0).val * 24 + (i 1).val / 2048) % 24 * 2048 + 2048
    rw [e1]; omega
  | ⟨2, _⟩ =>
    show win0_7.index ⟨(i 0).val * 24 + (i 1).val / 2048, ht⟩ (2 : Fin 3) * 64 ≤ (i 2).val
      ∧ (i 2).val < win0_7.index ⟨(i 0).val * 24 + (i 1).val / 2048, ht⟩ (2 : Fin 3) * 64 + 64
    rw [f2]; omega

/-- The result array after the run is GK of the arrays the region finds. -/
theorem final (c : Dev nD) : (dats m 0 c).arrAt 7 cfg0.N = (GK (V m c main_arg0) (V m c main_v14) (V m c main_v32) (V m c main_v50) (V m c main_v68) (V m c main_v105) (V m c main_v106)) :=
  (dats m 0 c).arrAt_eq_of_cover 7 (GK (V m c main_arg0) (V m c main_v14) (V m c main_v32) (V m c main_v50) (V m c main_v68) (V m c main_v105) (V m c main_v106)) (fun t _ => flushed_eq m c t) cover

/-- The run, read: the result at GK of the arrays the region finds, the arguments unchanged. -/
theorem run_value : θ_run defs (onTc (τ := τ) (main (F := Ideal))) ⟨m, fun _ => 0, ρ⟩ (fun r => ∀ c : Dev nD,
      r.2.mem ((c.tc : Thread nD τ).loc main_v107) = (GK (V m c main_arg0) (V m c main_v14) (V m c main_v32) (V m c main_v50) (V m c main_v68) (V m c main_v105) (V m c main_v106))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Hand

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.Cheb.lean ====
/-
  The Chebyshev recursion of a sparse operator on one column, and the law that joins the two ways of applying a
  depthwise filter followed by a pointwise one.

  A sparse matrix L is given as a list of edges: edge e carries a weight, a signed row index and a source row.
  Applied to a column v, row m of L v is the sum over the edges whose row index is m of weight times v at the source
  row; an edge whose row index names no row contributes nowhere. The Chebyshev columns are T0 = v, T1 = L T0 and
  T(k+1) = 2 L T(k) − T(k−1). All of them are real numbers when the weights, the two and the column are.

  For real data the depthwise-then-pointwise filter Σ_f p f · (Σ_k d f k · T k f) equals the sum over k of the
  products Σ_f T k f · (p f · d f k) accumulated term by term from zero: distributivity, which the extended reals
  have only away from the infinities.
-/
import Mathlib.Data.EReal.Inv
import Mathlib.Algebra.BigOperators.Fin
import proofs.«157191_j24421184045264_2_alg».proof.Proof.LibRealSums

noncomputable section

open scoped BigOperators

namespace Cert.Cheb

open Cert.Math

variable {E M : ℕ}

/-- Row m of the sparse matrix applied to the column v, from the initial value z0. -/
def spmm (z0 : EReal) (ev : Fin E → EReal) (rows : Fin E → Int) (src : Fin E → Fin M) (v : Fin M → EReal)
    (m : Fin M) : EReal :=
  z0 + ∑ e : Fin E, if rows e = (m.val : Int) then ev e * v (src e) else 0

/-- The first Chebyshev column. -/
def t1 (z0 : EReal) (ev : Fin E → EReal) (rows : Fin E → Int) (src : Fin E → Fin M) (v : Fin M → EReal) :
    Fin M → EReal := spmm z0 ev rows src v

/-- The second: 2 L T1 − T0. -/
def t2 (z0 two : EReal) (ev : Fin E → EReal) (rows : Fin E → Int) (src : Fin E → Fin M) (v : Fin M → EReal) :
    Fin M → EReal := fun m => two * spmm z0 ev rows src (t1 z0 ev rows src v) m - v m

/-- The third: 2 L T2 − T1. -/
def t3 (z0 two : EReal) (ev : Fin E → EReal) (rows : Fin E → Int) (src : Fin E → Fin M) (v : Fin M → EReal) :
    Fin M → EReal := fun m => two * spmm z0 ev rows src (t2 z0 two ev rows src v) m - t1 z0 ev rows src v m

/-- The fourth: 2 L T3 − T2. -/
def t4 (z0 two : EReal) (ev : Fin E → EReal) (rows : Fin E → Int) (src : Fin E → Fin M) (v : Fin M → EReal) :
    Fin M → EReal := fun m => two * spmm z0 ev rows src (t3 z0 two ev rows src v) m - t2 z0 two ev rows src v m

/-- The five columns by number. -/
def cheb (z0 two : EReal) (ev : Fin E → EReal) (rows : Fin E → Int) (src : Fin E → Fin M) (v : Fin M → EReal) :
    Fin 5 → Fin M → EReal := fun k => match k with
  | ⟨0, _⟩ => v
  | ⟨1, _⟩ => t1 z0 ev rows src v
  | ⟨2, _⟩ => t2 z0 two ev rows src v
  | ⟨3, _⟩ => t3 z0 two ev rows src v
  | ⟨4, _⟩ => t4 z0 two ev rows src v

/-- A difference of reals is real. -/
theorem IsReal.sub {x y : EReal} : IsReal x → IsReal y → IsReal (x - y) := by
  rintro ⟨a, rfl⟩ ⟨b, rfl⟩; exact ⟨a - b, (EReal.coe_sub a b).symm⟩

section real
variable {z0 two : EReal} {ev : Fin E → EReal} {rows : Fin E → Int} {src : Fin E → Fin M} {v : Fin M → EReal}

theorem spmm_real (hz : IsReal z0) (hev : ∀ e, IsReal (ev e)) (hv : ∀ m, IsReal (v m)) (m : Fin M) :
    IsReal (spmm z0 ev rows src v m) := by
  unfold spmm
  refine IsReal.add hz (IsReal.sum _ _ fun e _ => ?_)
  by_cases h : rows e = (m.val : Int)
  · rw [if_pos h]; exact IsReal.mul (hev e) (hv _)
  · rw [if_neg h]; exact isReal_zero

theorem t1_real (hz : IsReal z0) (hev : ∀ e, IsReal (ev e)) (hv : ∀ m, IsReal (v m)) (m : Fin M) :
    IsReal (t1 z0 ev rows src v m) := spmm_real hz hev hv m

theorem t2_real (hz : IsReal z0) (ht : IsReal two) (hev : ∀ e, IsReal (ev e)) (hv : ∀ m, IsReal (v m)) (m : Fin M) :
    IsReal (t2 z0 two ev rows src v m) :=
  IsReal.sub (IsReal.mul ht (spmm_real hz hev (t1_real hz hev hv) m)) (hv m)

theorem t3_real (hz : IsReal z0) (ht : IsReal two) (hev : ∀ e, IsReal (ev e)) (hv : ∀ m, IsReal (v m)) (m : Fin M) :
    IsReal (t3 z0 two ev rows src v m) :=
  IsReal.sub (IsReal.mul ht (spmm_real hz hev (t2_real hz ht hev hv) m)) (t1_real hz hev hv m)

theorem t4_real (hz : IsReal z0) (ht : IsReal two) (hev : ∀ e, IsReal (ev e)) (hv : ∀ m, IsReal (v m)) (m : Fin M) :
    IsReal (t4 z0 two ev rows src v m) :=
  IsReal.sub (IsReal.mul ht (spmm_real hz hev (t3_real hz ht hev hv) m)) (t2_real hz ht hev hv m)

/-- Every Chebyshev column of real data is real. -/
theorem cheb_real (hz : IsReal z0) (ht : IsReal two) (hev : ∀ e, IsReal (ev e)) (hv : ∀ m, IsReal (v m))
    (k : Fin 5) (m : Fin M) : IsReal (cheb z0 two ev rows src v k m) := by
  match k with
  | ⟨0, _⟩ => exact hv m
  | ⟨1, _⟩ => exact t1_real hz hev hv m
  | ⟨2, _⟩ => exact t2_real hz ht hev hv m
  | ⟨3, _⟩ => exact t3_real hz ht hev hv m
  | ⟨4, _⟩ => exact t4_real hz ht hev hv m

end real

/-- The filter law: for real data, the five products accumulated one after the other from zero are the pointwise
    filter applied to the depthwise one. -/
theorem filter_assoc {n : ℕ} (T : Fin 5 → Fin n → EReal) (p : Fin n → EReal) (d : Fin n → Fin 5 → EReal)
    (hT : ∀ k f, IsReal (T k f)) (hp : ∀ f, IsReal (p f)) (hd : ∀ f k, IsReal (d f k)) :
    (((((0 : EReal) + ∑ f, T 0 f * (p f * d f 0)) + ∑ f, T 1 f * (p f * d f 1)) + ∑ f, T 2 f * (p f * d f 2))
        + ∑ f, T 3 f * (p f * d f 3)) + ∑ f, T 4 f * (p f * d f 4)
      = ∑ f, p f * ∑ k, d f k * T k f := by
  choose t ht using hT
  choose p' hp' using hp
  choose d' hd' using hd
  simp only [ht, hp', hd', ← EReal.coe_mul, ← coe_sum, ← EReal.coe_add, ← EReal.coe_zero]
  refine congrArg _ ?_
  simp only [Fin.sum_univ_five, Finset.mul_sum, zero_add, ← Finset.sum_add_distrib]
  refine Finset.sum_congr rfl fun f _ => ?_
  ring

end Cert.Cheb

end
-- ==== Proof.Spec.lean ====
/-
  The result both programs compute, as one function of the argument arrays.

  The graph is a list of 393216 edges: edge e has weight edge_vals[e], row index edge_rows[e] (read as a signed
  integer; an edge whose row index is not a node contributes nowhere) and source node edge_cols[e], where a negative
  column index has the node count 49152 added and the result is clamped into the node range, as indexing an array
  does. For batch n and channel f the column x[n, ·, f] has the five Chebyshev columns T k of Cheb.lean, and the
  result at (n, m, o) is
     max (Σ_f pkernel[o, f] · (Σ_k dkernel[f, 0, k] · T k [n, m, f]) + bias[0, 0, o]) 0.
-/
import proofs.«157191_j24421184045264_2_alg».proof.Proof.Cheb
import Idealize.ShloMosaic.PureOps.Ideal
import Idealize.ShloMosaic.Lib.ValueIdx

noncomputable section

open scoped BigOperators

namespace Cert.Spec

open Idealize.ShloMosaic Idealize.ShloMosaic.ValueIdx Cert.Cheb

/-- A column index as indexing reads it: a negative one has the node count added. -/
def nrm (w : BitVec 32) : BitVec 32 := Scalar.select (IntOp.cmpi .slt w 0#32) (IntOp.addi w 49152#32) w

/-- The source node of edge e: its normalised column index, signed, clamped into the node range. -/
def src (a6 : (⟨1, ![393216]⟩ : Shape).Idx → BitVec 32) (e : Fin 393216) : Fin 49152 :=
  ⟨min (nrm (a6 (ix1 e))).toInt.toNat (49152 - 1), by omega⟩

/-- The row index of edge e, signed. -/
def rows (a5 : (⟨1, ![393216]⟩ : Shape).Idx → BitVec 32) (e : Fin 393216) : Int := (a5 (ix1 e)).toInt

/-- The weight of edge e. -/
def ev (a1 : (⟨1, ![393216]⟩ : Shape).Idx → EReal) (e : Fin 393216) : EReal := a1 (ix1 e)

/-- The zero both programs start their sums from. -/
def zr : EReal := Ideal.ofBits .f32 0x00000000#32

/-- The two of the Chebyshev recursion. -/
def two : EReal := Ideal.ofBits .f32 0x40000000#32

/-- Chebyshev column k of batch n and channel f, at node m. -/
def T (a0 : (⟨3, ![16, 49152, 32]⟩ : Shape).Idx → EReal) (a1 : (⟨1, ![393216]⟩ : Shape).Idx → EReal)
    (a5 a6 : (⟨1, ![393216]⟩ : Shape).Idx → BitVec 32) (k : Fin 5) (n : Fin 16) (m : Fin 49152) (f : Fin 32) : EReal :=
  cheb zr two (ev a1) (rows a5) (src a6) (fun m' => a0 (ix3 n m' f)) k m

/-- The result array. -/
def G (a0 : (⟨3, ![16, 49152, 32]⟩ : Shape).Idx → EReal) (a1 : (⟨1, ![393216]⟩ : Shape).Idx → EReal)
    (a2 : (⟨3, ![32, 1, 5]⟩ : Shape).Idx → EReal) (a3 : (⟨2, ![64, 32]⟩ : Shape).Idx → EReal)
    (a4 : (⟨3, ![1, 1, 64]⟩ : Shape).Idx → EReal) (a5 a6 : (⟨1, ![393216]⟩ : Shape).Idx → BitVec 32) :
    (⟨3, ![16, 49152, 64]⟩ : Shape).Idx → EReal := fun i =>
  max ((∑ f : Fin 32, a3 (ix2 (i 2) f) * ∑ k : Fin 5, a2 (ix3 f (0 : Fin 1) k) * T a0 a1 a5 a6 k (i 0) (i 1) f)
      + a4 (ix3 (0 : Fin 1) (0 : Fin 1) (i 2))) zr

end Cert.Spec

end
-- ==== Proof.LibGatherRows.lean ====
/-
  `x[idx]` along axis 0, with one start index per result row, read at an index.

  jnp's `x[idx]` for an integer vector `idx : [R]` lowers to a gather whose start indices are the column `[R, 1]`:
  of a matrix `x : [N, C]` it takes whole rows (offset axis 1, axis 0 collapsed, slice sizes `[1, C]`), of a vector
  `x : [N]` single entries (no offset axis, slice size `[1]`). Either way result row `r` comes from the operand's row
  `srcRow idx r`: the start index `idx[r, 0]` read as a signed integer and clamped into `[0, N − 1]`, as a gather clamps
  every start index. Both forms use THE SAME source row, which is what lets a row statistic be taken before or after
  the gather.
-/
import Idealize.ShloMosaic.Lib.ValueIdx
import Idealize.ShloMosaic.PureOps.ShapeOps

namespace Idealize.ShloMosaic.GatherRows

open Idealize.ShloMosaic Idealize.ShloMosaic.ValueIdx

variable {α : Type}

/-- The operand row that result row `r` reads: the start index `idx[r, 0]`, signed, clamped into `[0, N − 1]`. -/
def srcRow {N R w : Nat} (hN : 0 < N) (idx : IVec ⟨2, ![R, 1]⟩ w) (r : Fin R) : Fin N :=
  ⟨min (idx (ix2 r (0 : Fin 1))).toInt.toNat (N - 1), by omega⟩

/-- The dimension numbers of a gather of whole rows of an `[N, C]` operand at start indices `[R, 1]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries of an `[N]` operand at start indices `[R, 1]`. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- ROWS, READ AT `(r, k)`: the operand's entry `(srcRow idx r, k)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k) = x (ix2 (srcRow hN idx r) k) := by
  unfold Host.gather
  congr 1
  funext a
  refine Fin.ext ?_
  have hsi : (rowsDims N C R wf).siIdx (ix2 r k) ⟨List.idxOf (0 : Fin 2) (rowsDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl), hsi]
    rfl
  | ⟨1, _⟩ =>
    show (rowsDims N C R wf).start (ix2 r k) idx 1 + (rowsDims N C R wf).batchCoord (ix2 r k) 1
      + (rowsDims N C R wf).offCoord (ix2 r k) 1 = k.val
    rw [GatherDims.batchCoord_eq_zero _ _ _ List.not_mem_nil]
    unfold GatherDims.start
    rw [dif_neg (show (1 : Fin 2) ∉ (rowsDims N C R wf).startIndexMap from (by decide : (1 : Fin 2) ∉ ([0] : List (Fin 2))))]
    simp only [Nat.add_zero, Nat.zero_add]
    rfl

/-- ENTRIES, READ AT `r`: the operand's entry `srcRow idx r`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r) = x (ix1 (srcRow hN idx r)) := by
  unfold Host.gather
  congr 1
  funext a
  obtain rfl : a = 0 := Subsingleton.elim _ _
  refine Fin.ext ?_
  show (entriesDims N R wf).start (ix1 r) idx 0 + (entriesDims N R wf).batchCoord (ix1 r) 0
    + (entriesDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 r) ⟨List.idxOf (0 : Fin 1) (entriesDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherRows
-- ==== Proof.LibScatterSum.lean ====
/-
  The host's accumulating scatter at the ideal values, read at an element, for any shapes and dimension numbers:
  the operand's element plus the sum, over ALL updates, of the update when it lands on that element and of zero
  when it does not.
-/
import Idealize.ShloMosaic.PureOps.Ideal
import Idealize.ShloMosaic.PureOps.Ideal.Laws
import Mathlib.Algebra.BigOperators.Group.Finset.Piecewise

noncomputable section

open scoped BigOperators

namespace Cert.ScatterSum

open Idealize.ShloMosaic

/-- A sum over the updates that land on `i` is a sum over all updates of the update or zero. -/
theorem hostScatterAdd_apply {s si su : Shape} (d : ScatterDims s si su) {w : Nat} (x : s.Idx → EReal) (idx : IVec si w)
    (upd : su.Idx → EReal) (i : s.Idx) (g : su.Idx → EReal)
    (hg : ∀ j, (d.resultIdx? j idx = some i → g j = upd j) ∧ (d.resultIdx? j idx ≠ some i → g j = 0)) :
    (Host.scatterAdd (F := Ideal) (φ := .f32) d x idx upd : s.Idx → EReal) i = (x i : EReal) + ∑ j : su.Idx, g j := by
  show Ideal.hostScatterAdd d x idx upd i = _
  unfold Ideal.hostScatterAdd
  refine congrArg (x i + ·) ?_
  rw [Finset.sum_filter]
  refine Finset.sum_congr rfl fun j _ => ?_
  by_cases h : d.resultIdx? j idx = some i
  · rw [if_pos h, (hg j).1 h]
  · rw [if_neg h, (hg j).2 h]

end Cert.ScatterSum

end
-- ==== Proof.LibEdgeSums.lean ====
/-
  Sums over edges, read at an index: the gather and the accumulating scatter of a sparse matrix product
  `segment_sum(edge_vals[:, None] * v[edge_cols], edge_rows)`, in two layouts of the dense operand.

  An edge `e` carries a column index and a row index. The gather `v[edge_cols]` gives edge `e` the operand's SOURCE ROW:
  the start index `edge_cols[e]` read as a signed integer and clamped into `[0, N − 1]`, as a gather clamps every start
  index. The accumulating scatter adds update row `e` onto result row `m` exactly when the row index `edge_rows[e]`,
  read as a signed integer, IS `m`; it is not clamped, so an update whose row index is negative or `≥ N` lands nowhere
  and is dropped. Result row `m` is therefore the operand's row `m` plus the sum, over the edges whose row index is
  `m`, of the update rows.

  The two layouts: the ROW layout keeps the dense operand as a matrix `[N, C]`, one row per node, with updates `[R, C]`,
  one row per edge; the MIDDLE-AXIS layout keeps it as `[B, N, C]`, the node on the middle axis, with updates
  `[B, R, C]`, the edge on the middle axis, and the outer and inner axes carried through unchanged. In both layouts the
  gather reads the same source row and the scatter lands on the same result row, coordinate by coordinate on the axes
  carried through; that is what the lemmas below say, at the ideal values (the extended reals), where the sum over the
  edges has no order.
-/
import Idealize.ShloMosaic.Lib.ValueIdx
import Idealize.ShloMosaic.PureOps.ShapeOps
import Idealize.ShloMosaic.PureOps.Ideal
import Idealize.ShloMosaic.PureOps.Ideal.Laws
import proofs.«157191_j24421184045264_2_alg».proof.Proof.LibGatherRows
import proofs.«157191_j24421184045264_2_alg».proof.Proof.LibScatterSum

noncomputable section

open scoped BigOperators

namespace Cert.EdgeSums

open Idealize.ShloMosaic Idealize.ShloMosaic.ValueIdx Idealize.ShloMosaic.GatherRows

variable {α : Type}

/-! ## The gather, node on the middle axis -/

/-- The dimension numbers of a gather of whole `[B, ·, C]` slabs of a `[B, N, C]` operand at start indices `[R, 1]`:
    the start index names the middle axis, which is collapsed; the outer and inner axes are offset axes at full size. -/
abbrev midGatherDims (B N C R : Nat)
    (wf : GatherDims.WF ⟨3, ![B, N, C]⟩ ⟨2, ![R, 1]⟩ ⟨3, ![B, R, C]⟩ [0, 2] [1] [] [1] [] 1 ![B, 1, C]) :
    GatherDims ⟨3, ![B, N, C]⟩ ⟨2, ![R, 1]⟩ ⟨3, ![B, R, C]⟩ where
  offsetDims := [0, 2]
  collapsedSliceDims := [1]
  operandBatchingDims := []
  startIndicesBatchingDims := []
  startIndexMap := [1]
  indexVectorDim := 1
  sliceSizes := ![B, 1, C]
  wf := wf

/-- THE GATHER, READ AT `(n, e, f)`: the operand's entry `(n, srcRow idx e, f)`. The source row of edge `e` is the start
    index `idx[e, 0]`, signed, clamped into `[0, N − 1]` — the same row a gather of whole rows of an `[N, C]` matrix
    reads for `e`; the outer coordinate `n` and the inner coordinate `f` pass through. -/
theorem gather_mid_apply {B N C R w : Nat} (hN : 0 < N)
    (wf : GatherDims.WF ⟨3, ![B, N, C]⟩ ⟨2, ![R, 1]⟩ ⟨3, ![B, R, C]⟩ [0, 2] [1] [] [1] [] 1 ![B, 1, C])
    (x : (⟨3, ![B, N, C]⟩ : Shape).Idx → α) (idx : IVec ⟨2, ![R, 1]⟩ w) (n : Fin B) (e : Fin R) (f : Fin C) :
    Host.gather (midGatherDims B N C R wf) x idx (ix3 n e f) = x (ix3 n (srcRow hN idx e) f) := by
  unfold Host.gather
  congr 1
  funext a
  refine Fin.ext ?_
  have hsi : (midGatherDims B N C R wf).siIdx (ix3 n e f) ⟨List.idxOf (1 : Fin 3) (midGatherDims B N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (midGatherDims B N C R wf).start (ix3 n e f) idx 0 + (midGatherDims B N C R wf).batchCoord (ix3 n e f) 0
      + (midGatherDims B N C R wf).offCoord (ix3 n e f) 0 = n.val
    rw [GatherDims.batchCoord_eq_zero _ _ _ List.not_mem_nil]
    unfold GatherDims.start
    rw [dif_neg (show (0 : Fin 3) ∉ (midGatherDims B N C R wf).startIndexMap from (by decide : (0 : Fin 3) ∉ ([1] : List (Fin 3))))]
    simp only [Nat.add_zero, Nat.zero_add]
    rfl
  | ⟨1, _⟩ =>
    show (midGatherDims B N C R wf).start (ix3 n e f) idx 1 + (midGatherDims B N C R wf).batchCoord (ix3 n e f) 1
      + (midGatherDims B N C R wf).offCoord (ix3 n e f) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N C R wf).startIndexMap from List.mem_singleton.mpr rfl), hsi]
    rfl
  | ⟨2, _⟩ =>
    show (midGatherDims B N C R wf).start (ix3 n e f) idx 2 + (midGatherDims B N C R wf).batchCoord (ix3 n e f) 2
      + (midGatherDims B N C R wf).offCoord (ix3 n e f) 2 = f.val
    rw [GatherDims.batchCoord_eq_zero _ _ _ List.not_mem_nil]
    unfold GatherDims.start
    rw [dif_neg (show (2 : Fin 3) ∉ (midGatherDims B N C R wf).startIndexMap from (by decide : (2 : Fin 3) ∉ ([1] : List (Fin 3))))]
    simp only [Nat.add_zero, Nat.zero_add]
    rfl

/-! ## Where an update lands -/

/-- An update index `j` lands on the operand index `i` exactly when, on every operand axis, the window's start (a
    signed integer, not clamped) plus the window coordinate is `i`'s coordinate. In particular an update whose start
    plus window coordinate is negative, or not below the axis's extent, on some axis lands on no `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro heq a
      have hi := congrFun (Option.some.inj heq) a
      have hv : (d.start j idx a + (d.window j a : Int)).toNat = (i a).val := congrArg Fin.val hi
      have := (h a).1
      omega
    · intro hall
      refine congrArg some (funext fun a => Fin.ext ?_)
      have := hall a
      show (d.start j idx a + (d.window j a : Int)).toNat = (i a).val
      omega
  · rename_i h
    constructor
    · intro heq; cases heq
    · intro hall
      exfalso
      apply h
      intro a
      have := hall a
      have := (i a).isLt
      constructor <;> omega

/-! ## The accumulating scatter, one row per node -/

/-- The dimension numbers of a scatter of update rows `[R, C]` into an `[N, C]` operand at scatter indices `[R, 1]`:
    the scatter index names axis 0, which is an inserted window axis; axis 1 is the window, at full size. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update entry `(e, k')` lands on operand entry `(m, k)` exactly when the columns agree and the row index `idx[e, 0]`,
    read as a signed integer, is `m`. -/
theorem row_lands_iff {N C R w : Nat}
    (wf : ScatterDims.WF ⟨2, ![N, C]⟩ ⟨2, ![R, 1]⟩ ⟨2, ![R, C]⟩ [1] [0] [0] 1)
    (idx : IVec ⟨2, ![R, 1]⟩ w) (e : Fin R) (k' : Fin C) (m : Fin N) (k : Fin C) :
    (rowScatterDims N C R wf).resultIdx? (ix2 e k') idx = some (ix2 m k) ↔
      k' = k ∧ (idx (ix2 e (0 : Fin 1))).toInt = (m.val : Int) := by
  rw [resultIdx?_eq_some_iff]
  have hsi : (rowScatterDims N C R wf).siIdx (ix2 e k') ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatterDims N C R wf).start (ix2 e k') idx 0 = (idx (ix2 e (0 : Fin 1))).toInt := by
    unfold ScatterDims.start
    rw [dif_pos (show (0 : Fin 2) ∈ (rowScatterDims N C R wf).scatterDimsToOperandDims from List.mem_singleton.mpr rfl), hsi]
  have hs1 : (rowScatterDims N C R wf).start (ix2 e k') idx 1 = 0 := by
    unfold ScatterDims.start
    rw [dif_neg (show (1 : Fin 2) ∉ (rowScatterDims N C R wf).scatterDimsToOperandDims from (by decide : (1 : Fin 2) ∉ ([0] : List (Fin 2))))]
  have hw0 : (rowScatterDims N C R wf).window (ix2 e k') 0 = 0 := rfl
  have hw1 : (rowScatterDims N C R wf).window (ix2 e k') 1 = k'.val := rfl
  constructor
  · intro h
    have h0 := h 0
    have h1 := h 1
    rw [hs0, hw0] at h0
    rw [hs1, hw1] at h1
    have h0' : (idx (ix2 e (0 : Fin 1))).toInt + ((0 : Nat) : Int) = (m.val : Int) := h0
    have h1' : (0 : Int) + (k'.val : Int) = (k.val : Int) := h1
    exact ⟨Fin.ext (by omega), by omega⟩
  · rintro ⟨rfl, hm⟩ a
    match a with
    | ⟨0, _⟩ =>
      show (rowScatterDims N C R wf).start (ix2 e k') idx 0 + (((rowScatterDims N C R wf).window (ix2 e k') 0 : Nat) : Int) = (m.val : Int)
      rw [hs0, hw0]; omega
    | ⟨1, _⟩ =>
      show (rowScatterDims N C R wf).start (ix2 e k') idx 1 + (((rowScatterDims N C R wf).window (ix2 e k') 1 : Nat) : Int) = (k'.val : Int)
      rw [hs1, hw1]; omega

/-- THE SCATTER, READ AT `(m, k)`: the operand's entry plus the sum, over ALL edges `e`, of the update entry `(e, k)`
    when the row index `idx[e, 0]`, read as a signed integer, is `m`, and of zero when it is not. An edge whose row
    index is negative or `≥ N` meets the condition for no `m`: it is dropped. -/
theorem scatter_rows_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (m : Fin N) (k : Fin C) :
    (Host.scatterAdd (F := Ideal) (φ := .f32) (rowScatterDims N C R wf) x idx upd :
        (⟨2, ![N, C]⟩ : Shape).Idx → EReal) (ix2 m k)
      = x (ix2 m k) + ∑ e : Fin R, if (idx (ix2 e (0 : Fin 1))).toInt = (m.val : Int) then upd (ix2 e k) else 0 := by
  classical
  rw [Cert.ScatterSum.hostScatterAdd_apply (rowScatterDims N C R wf) x idx upd (ix2 m k)
    (fun j => if (rowScatterDims N C R wf).resultIdx? j idx = some (ix2 m k) then upd j else 0)
    (fun j => ⟨fun h => if_pos h, fun h => if_neg h⟩)]
  refine congrArg (x (ix2 m k) + ·) ?_
  rw [sum_idx2]
  refine Finset.sum_congr rfl fun e _ => ?_
  simp only [row_lands_iff]
  by_cases hc : (idx (ix2 e (0 : Fin 1))).toInt = (m.val : Int)
  · rw [if_pos hc]
    simp only [hc, and_true]
    exact Finset.sum_ite_eq' Finset.univ k (fun k' => upd (ix2 e k')) |>.trans (if_pos (Finset.mem_univ k))
  · rw [if_neg hc]
    simp only [hc, and_false, if_false, Finset.sum_const_zero]

/-! ## The accumulating scatter, node on the middle axis -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of a scatter of update slabs `[B, R, C]` into a `[B, N, C]` operand at scatter indices
    `[R, 1]`: the scatter index names the middle axis, which is an inserted window axis; the outer and inner axes are
    the window, at full size. -/
abbrev midScatterDims (B N C R : Nat)
    (wf : ScatterDims.WF ⟨3, ![B, N, C]⟩ ⟨2, ![R, 1]⟩ ⟨3, ![B, R, C]⟩ [0, 2] [1] [1] 1) :
    ScatterDims ⟨3, ![B, N, C]⟩ ⟨2, ![R, 1]⟩ ⟨3, ![B, R, C]⟩ where
  updateWindowDims := [0, 2]
  insertedWindowDims := [1]
  scatterDimsToOperandDims := [1]
  indexVectorDim := 1
  wf := wf

/-- Update entry `(n', e, f')` lands on operand entry `(n, m, f)` exactly when the outer and inner coordinates agree
    and the row index `idx[e, 0]`, read as a signed integer, is `m`. -/
theorem mid_lands_iff {B N C R w : Nat}
    (wf : ScatterDims.WF ⟨3, ![B, N, C]⟩ ⟨2, ![R, 1]⟩ ⟨3, ![B, R, C]⟩ [0, 2] [1] [1] 1)
    (idx : IVec ⟨2, ![R, 1]⟩ w) (n' : Fin B) (e : Fin R) (f' : Fin C) (n : Fin B) (m : Fin N) (f : Fin C) :
    (midScatterDims B N C R wf).resultIdx? (ix3 n' e f') idx = some (ix3 n m f) ↔
      n' = n ∧ f' = f ∧ (idx (ix2 e (0 : Fin 1))).toInt = (m.val : Int) := by
  rw [resultIdx?_eq_some_iff]
  have hsi : (midScatterDims B N C R wf).siIdx (ix3 n' e f') ⟨List.idxOf (1 : Fin 3) (midScatterDims B N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (midScatterDims B N C R wf).start (ix3 n' e f') idx 0 = 0 := by
    unfold ScatterDims.start
    rw [dif_neg (show (0 : Fin 3) ∉ (midScatterDims B N C R wf).scatterDimsToOperandDims from (by decide : (0 : Fin 3) ∉ ([1] : List (Fin 3))))]
  have hs1 : (midScatterDims B N C R wf).start (ix3 n' e f') idx 1 = (idx (ix2 e (0 : Fin 1))).toInt := by
    unfold ScatterDims.start
    rw [dif_pos (show (1 : Fin 3) ∈ (midScatterDims B N C R wf).scatterDimsToOperandDims from List.mem_singleton.mpr rfl), hsi]
  have hs2 : (midScatterDims B N C R wf).start (ix3 n' e f') idx 2 = 0 := by
    unfold ScatterDims.start
    rw [dif_neg (show (2 : Fin 3) ∉ (midScatterDims B N C R wf).scatterDimsToOperandDims from (by decide : (2 : Fin 3) ∉ ([1] : List (Fin 3))))]
  have hw0 : (midScatterDims B N C R wf).window (ix3 n' e f') 0 = n'.val := rfl
  have hw1 : (midScatterDims B N C R wf).window (ix3 n' e f') 1 = 0 := rfl
  have hw2 : (midScatterDims B N C R wf).window (ix3 n' e f') 2 = f'.val := rfl
  constructor
  · intro h
    have h0 := h 0
    have h1 := h 1
    have h2 := h 2
    rw [hs0, hw0] at h0
    rw [hs1, hw1] at h1
    rw [hs2, hw2] at h2
    have h0' : (0 : Int) + (n'.val : Int) = (n.val : Int) := h0
    have h1' : (idx (ix2 e (0 : Fin 1))).toInt + ((0 : Nat) : Int) = (m.val : Int) := h1
    have h2' : (0 : Int) + (f'.val : Int) = (f.val : Int) := h2
    exact ⟨Fin.ext (by omega), Fin.ext (by omega), by omega⟩
  · rintro ⟨rfl, rfl, hm⟩ a
    match a with
    | ⟨0, _⟩ =>
      show (midScatterDims B N C R wf).start (ix3 n' e f') idx 0 + (((midScatterDims B N C R wf).window (ix3 n' e f') 0 : Nat) : Int) = (n'.val : Int)
      rw [hs0, hw0]; omega
    | ⟨1, _⟩ =>
      show (midScatterDims B N C R wf).start (ix3 n' e f') idx 1 + (((midScatterDims B N C R wf).window (ix3 n' e f') 1 : Nat) : Int) = (m.val : Int)
      rw [hs1, hw1]; omega
    | ⟨2, _⟩ =>
      show (midScatterDims B N C R wf).start (ix3 n' e f') idx 2 + (((midScatterDims B N C R wf).window (ix3 n' e f') 2 : Nat) : Int) = (f'.val : Int)
      rw [hs2, hw2]; omega

/-- THE SCATTER, READ AT `(n, m, f)`: the operand's entry plus the sum, over ALL edges `e`, of the update entry
    `(n, e, f)` when the row index `idx[e, 0]`, read as a signed integer, is `m`, and of zero when it is not — the same
    condition on `e` as in the row layout, with the outer coordinate `n` and the inner coordinate `f` passing through.
    An edge whose row index is negative or `≥ N` is dropped. -/
theorem scatter_mid_apply {B N C R w : Nat}
    (wf : ScatterDims.WF ⟨3, ![B, N, C]⟩ ⟨2, ![R, 1]⟩ ⟨3, ![B, R, C]⟩ [0, 2] [1] [1] 1)
    (x : (⟨3, ![B, N, C]⟩ : Shape).Idx → EReal) (idx : IVec ⟨2, ![R, 1]⟩ w)
    (upd : (⟨3, ![B, R, C]⟩ : Shape).Idx → EReal) (n : Fin B) (m : Fin N) (f : Fin C) :
    (Host.scatterAdd (F := Ideal) (φ := .f32) (midScatterDims B N C R wf) x idx upd :
        (⟨3, ![B, N, C]⟩ : Shape).Idx → EReal) (ix3 n m f)
      = x (ix3 n m f) + ∑ e : Fin R, if (idx (ix2 e (0 : Fin 1))).toInt = (m.val : Int) then upd (ix3 n e f) else 0 := by
  classical
  rw [Cert.ScatterSum.hostScatterAdd_apply (midScatterDims B N C R wf) x idx upd (ix3 n m f)
    (fun j => if (midScatterDims B N C R wf).resultIdx? j idx = some (ix3 n m f) then upd j else 0)
    (fun j => ⟨fun h => if_pos h, fun h => if_neg h⟩)]
  refine congrArg (x (ix3 n m f) + ·) ?_
  rw [sum_idx3]
  simp only [mid_lands_iff]
  rw [Finset.sum_eq_single n
    (fun n' _ hne => Finset.sum_eq_zero fun e _ => Finset.sum_eq_zero fun f' _ => if_neg fun h => hne h.1)
    (fun h => absurd (Finset.mem_univ n) h)]
  refine Finset.sum_congr rfl fun e _ => ?_
  by_cases hc : (idx (ix2 e (0 : Fin 1))).toInt = (m.val : Int)
  · rw [if_pos hc]
    simp only [hc, and_true, true_and]
    exact Finset.sum_ite_eq' Finset.univ f (fun f' => upd (ix3 n e f')) |>.trans (if_pos (Finset.mem_univ f))
  · rw [if_neg hc]
    simp only [hc, and_false, if_false, Finset.sum_const_zero]

end Cert.EdgeSums

end
-- ==== Proof.KernelHost.lean ====
/-
  What the region finds in the arrays the host stretch computes: the four higher Chebyshev arrays, the stacked
  weights and the bias, each read at an index.

  The host stretch applies the sparse operator to an array [batch, node, channel] by gathering, for every edge, the
  slab of its source node, scaling it by the edge's weight, and adding it onto the slab of the edge's row; read at
  (n, m, f) that is row m of the sparse matrix applied to the column (n, ·, f). The higher arrays follow the
  recursion T(k+1) = 2 L T(k) − T(k−1). The weights are, for each order k, the pointwise matrix scaled along its
  input channel by the depthwise coefficient of that channel and order, transposed, and the five stacked.
-/
import proofs.«157191_j24421184045264_2_alg».proof.Proof.FrameIdeal
import proofs.«157191_j24421184045264_2_alg».proof.Proof.Spec
import proofs.«157191_j24421184045264_2_alg».proof.Proof.Cheb
import proofs.«157191_j24421184045264_2_alg».proof.Proof.LibEdgeSums
import proofs.«157191_j24421184045264_2_alg».proof.Proof.LibGatherRows
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.GatherRows
open Idealize.ShloMosaic.StableHlo
open Idealize.SL.Sem

/-- Float and word arrays of a shape, at the ideal values. -/
abbrev Tf (s : Shape) : Type := FVec Ideal s .f32
abbrev Ti (s : Shape) : Type := IVec s 32

/-! ## The host stretch's terms -/

/-- The edges' column indices as the gather takes them: a negative one has the node count added; one column. -/
def colIdx (a6 : Ti S393216) : Ti S393216x1 :=
  broadcastInDim S393216x1 ![0] bcast_S393216_S393216x1_0
    (select (cmpi .slt a6 (broadcastInDim S393216 ![] bcast_S_S393216 (constantI S_ 32 0#32)))
      (addi a6 (broadcastInDim S393216 ![] bcast_S_S393216 (constantI S_ 32 49152#32)))
      a6)

/-- The sparse operator applied to every column of an array [batch, node, channel]: from zero, every edge adds its
    weight times its source node's slab onto its row's slab. -/
def sp (a1 : Tf S393216) (a5 a6 : Ti S393216) (X : Tf S16x49152x32) : Tf S16x49152x32 :=
  Host.scatterAdd (F := Ideal) (φ := .f32) scatter_S16x49152x32_S393216x1_S16x393216x32_02_1_1_1
    (broadcastInDim S16x49152x32 ![1, 2] bcast_S49152x32_S16x49152x32_1_2
      (broadcastInDim S49152x32 ![] bcast_S_S49152x32 (constant (F := Ideal) S_ .f32 0x00000000#32)))
    (broadcastInDim S393216x1 ![0] bcast_S393216_S393216x1_0 a5)
    (mulf (F := Ideal) (φ := .f32)
      (broadcastInDim S16x393216x32 ![0, 1, 2] bcast_S1x393216x1_S16x393216x32_0_1_2
        (broadcastInDim S1x393216x1 ![1, 2] bcast_S393216x1_S1x393216x1_1_2
          (broadcastInDim S393216x1 ![0] bcast_S393216_S393216x1_0 a1)))
      (Host.gather gather_S16x49152x32_S393216x1_S16x393216x32_02_1_n_n_1_1_16132 X (colIdx a6)))

/-- One step of the recursion: twice the operator applied to the current array, minus the previous array. -/
def step (a1 : Tf S393216) (a5 a6 : Ti S393216) (cur prev : Tf S16x49152x32) : Tf S16x49152x32 :=
  subf (F := Ideal) (φ := .f32)
    (mulf (F := Ideal) (φ := .f32)
      (broadcastInDim S16x49152x32 ![] bcast_S_S16x49152x32 (constant (F := Ideal) S_ .f32 0x40000000#32))
      (sp a1 a5 a6 cur))
    prev

/-! ## Reading the terms at an index -/

/-- A vector spread into one column reads its entry. -/
theorem bcol_apply {α : Type} (x : S393216.Idx → α) (e : Fin 393216) :
    broadcastInDim S393216x1 ![0] bcast_S393216_S393216x1_0 x (ix2 e (0 : Fin 1)) = x (ix1 e) :=
  broadcastInDim_apply _ _ x _ _ fun a => match a with | ⟨0, _⟩ => rfl

/-- The column index the gather takes for edge e is the edge's normalised column index. -/
theorem colIdx_apply (a6 : Ti S393216) (e : Fin 393216) : colIdx a6 (ix2 e (0 : Fin 1)) = Cert.Spec.nrm (a6 (ix1 e)) := by
  unfold colIdx
  rw [bcol_apply]
  show Scalar.select (IntOp.cmpi .slt (a6 (ix1 e)) (broadcastInDim S393216 ![] bcast_S_S393216 (constantI S_ 32 0#32) (ix1 e)))
      (IntOp.addi (a6 (ix1 e)) (broadcastInDim S393216 ![] bcast_S_S393216 (constantI S_ 32 49152#32) (ix1 e))) (a6 (ix1 e)) = _
  rw [broadcastInDim_apply _ _ _ (ix1 e) ix0 (fun a => a.elim0), broadcastInDim_apply _ _ _ (ix1 e) ix0 (fun a => a.elim0)]
  rfl

/-- So the node the gather reads for edge e is the edge's source node. -/
theorem srcRow_colIdx (a6 : Ti S393216) (e : Fin 393216) :
    srcRow (N := 49152) (by decide) (colIdx a6) e = Cert.Spec.src a6 e := by
  refine Fin.ext ?_
  show min ((colIdx a6 (ix2 e (0 : Fin 1))).toInt.toNat) (49152 - 1) = min (Cert.Spec.nrm (a6 (ix1 e))).toInt.toNat (49152 - 1)
  rw [colIdx_apply]

/-- The sparse operator at (n, m, f): row m of the sparse matrix applied to the column (n, ·, f). -/
theorem sp_apply (a1 : Tf S393216) (a5 a6 : Ti S393216) (X : Tf S16x49152x32) (n : Fin 16) (m' : Fin 49152) (f : Fin 32) :
    sp a1 a5 a6 X (ix3 n m' f)
      = Cert.Cheb.spmm Cert.Spec.zr (Cert.Spec.ev a1) (Cert.Spec.rows a5) (Cert.Spec.src a6) (fun q => X (ix3 n q f)) m' := by
  unfold sp Cert.Cheb.spmm
  refine (Cert.EdgeSums.scatter_mid_apply scatter_S16x49152x32_S393216x1_S16x393216x32_02_1_1_1_wf _ _ _ n m' f).trans ?_
  refine congrArg₂ (· + ·) ?_ (Finset.sum_congr rfl fun e _ => ?_)
  · rw [broadcastInDim_apply _ _ _ (ix3 n m' f) (ix2 m' f) (fun a => match a with | ⟨0, _⟩ => rfl | ⟨1, _⟩ => rfl),
      broadcastInDim_apply _ _ _ (ix2 m' f) ix0 (fun a => a.elim0)]
    rfl
  · rw [bcol_apply, mulf_apply,
      broadcastInDim_apply _ _ _ (ix3 n e f) (ix3 (0 : Fin 1) e (0 : Fin 1)) (fun a => match a with | ⟨0, _⟩ => rfl | ⟨1, _⟩ => rfl | ⟨2, _⟩ => rfl),
      broadcastInDim_apply _ _ _ (ix3 (0 : Fin 1) e (0 : Fin 1)) (ix2 e (0 : Fin 1)) (fun a => match a with | ⟨0, _⟩ => rfl | ⟨1, _⟩ => rfl),
      bcol_apply]
    rw [show Host.gather gather_S16x49152x32_S393216x1_S16x393216x32_02_1_n_n_1_1_16132 X (colIdx a6) (ix3 n e f)
        = X (ix3 n (srcRow (N := 49152) (by decide) (colIdx a6) e) f) from
      Cert.EdgeSums.gather_mid_apply (by decide) gather_S16x49152x32_S393216x1_S16x393216x32_02_1_n_n_1_1_16132_wf X (colIdx a6) n e f,
      srcRow_colIdx]
    rfl

/-- One step of the recursion at (n, m, f). -/
theorem step_apply (a1 : Tf S393216) (a5 a6 : Ti S393216) (cur prev : Tf S16x49152x32) (n : Fin 16) (m' : Fin 49152) (f : Fin 32) :
    step a1 a5 a6 cur prev (ix3 n m' f)
      = Cert.Spec.two * Cert.Cheb.spmm Cert.Spec.zr (Cert.Spec.ev a1) (Cert.Spec.rows a5) (Cert.Spec.src a6) (fun q => cur (ix3 n q f)) m'
        - prev (ix3 n m' f) := by
  unfold step
  rw [subf_apply, mulf_apply, sp_apply, broadcastInDim_apply _ _ _ (ix3 n m' f) ix0 (fun a => a.elim0)]
  rfl

/-- The four higher arrays as the host stretch computes them from the arguments. -/
def x1 (a0 : Tf S16x49152x32) (a1 : Tf S393216) (a5 a6 : Ti S393216) : Tf S16x49152x32 := sp a1 a5 a6 a0
def x2 (a0 : Tf S16x49152x32) (a1 : Tf S393216) (a5 a6 : Ti S393216) : Tf S16x49152x32 := step a1 a5 a6 (x1 a0 a1 a5 a6) a0
def x3 (a0 : Tf S16x49152x32) (a1 : Tf S393216) (a5 a6 : Ti S393216) : Tf S16x49152x32 := step a1 a5 a6 (x2 a0 a1 a5 a6) (x1 a0 a1 a5 a6)
def x4 (a0 : Tf S16x49152x32) (a1 : Tf S393216) (a5 a6 : Ti S393216) : Tf S16x49152x32 := step a1 a5 a6 (x3 a0 a1 a5 a6) (x2 a0 a1 a5 a6)

section cheb
variable (a0 : Tf S16x49152x32) (a1 : Tf S393216) (a5 a6 : Ti S393216) (n : Fin 16) (m' : Fin 49152) (f : Fin 32)

/-- Each is the Chebyshev column of its order, at every batch, node and channel. -/
theorem x1_apply : x1 a0 a1 a5 a6 (ix3 n m' f) = Cert.Spec.T a0 a1 a5 a6 (1 : Fin 5) n m' f :=
  sp_apply a1 a5 a6 a0 n m' f
theorem x2_apply : x2 a0 a1 a5 a6 (ix3 n m' f) = Cert.Spec.T a0 a1 a5 a6 (2 : Fin 5) n m' f := by
  unfold x2; rw [step_apply]; simp only [x1_apply]; rfl
theorem x3_apply : x3 a0 a1 a5 a6 (ix3 n m' f) = Cert.Spec.T a0 a1 a5 a6 (3 : Fin 5) n m' f := by
  unfold x3; rw [step_apply]; simp only [x2_apply, x1_apply]; rfl
theorem x4_apply : x4 a0 a1 a5 a6 (ix3 n m' f) = Cert.Spec.T a0 a1 a5 a6 (4 : Fin 5) n m' f := by
  unfold x4; rw [step_apply]; simp only [x3_apply, x2_apply]; rfl
end cheb

/-! ## The weights -/

/-- The weight slab of order j: the pointwise matrix [output, channel] scaled along its channel by the depthwise
    coefficients of order j, transposed to [channel, output], under a leading unit axis. -/
def wslab (j : Nat) (h : S32x5.Slices ![0, j] S32x1) (a2 : Tf S32x1x5) (a3 : Tf S64x32) : Tf S1x32x64 :=
  broadcastInDim S1x32x64 ![1, 2] bcast_S32x64_S1x32x64_1_2
    (transpose S32x64 [1, 0]
      (mulf (F := Ideal) (φ := .f32) a3
        (broadcastInDim S64x32 ![0, 1] bcast_S1x32_S64x32_0_1
          (broadcastInDim S1x32 ![1] bcast_S32_S1x32_1
            (shapeCast S32 (extractStridedSlice S32x1 ![0, j] (shapeCast S32x5 a2 shapeCasts_S32x1x5_S32x5) h) shapeCasts_S32x1_S32))))
      transposes_S64x32_S32x64_1_0)

/-- Read at (0, f, o): the pointwise weight of (o, f) times the depthwise coefficient of (f, j). -/
theorem wslab_apply (j : Nat) (h : S32x5.Slices ![0, j] S32x1) (hj : j < 5) (a2 : Tf S32x1x5) (a3 : Tf S64x32) (f : Fin 32) (o : Fin 64) :
    wslab j h a2 a3 (ix3 (0 : Fin 1) f o) = a3 (ix2 o f) * a2 (ix3 f (0 : Fin 1) (⟨j, hj⟩ : Fin 5)) := by
  unfold wslab
  rw [broadcastInDim_apply _ _ _ (ix3 (0 : Fin 1) f o) (ix2 f o) (fun a => match a with | ⟨0, _⟩ => rfl | ⟨1, _⟩ => rfl),
    transpose_ix2_apply, mulf_apply,
    broadcastInDim_apply _ _ _ (ix2 o f) (ix2 (0 : Fin 1) f) (fun a => match a with | ⟨0, _⟩ => rfl | ⟨1, _⟩ => rfl),
    broadcastInDim_apply _ _ _ (ix2 (0 : Fin 1) f) (ix1 f) (fun a => match a with | ⟨0, _⟩ => rfl),
    shapeCast_apply _ _ (ix1 f) (ix2 f (0 : Fin 1)) (by
      rw [Shape.rowMajor_val_two, Shape.rowMajor_val_one]; show f.val * 1 + 0 = f.val; omega),
    extractStridedSlice_apply _ _ h (ix2 f (0 : Fin 1)) (ix2 f (⟨j, hj⟩ : Fin 5)) (fun a => match a with
      | ⟨0, _⟩ => by show f.val = 0 + f.val; omega
      | ⟨1, _⟩ => by show j = j + 0; omega),
    shapeCast_apply _ _ (ix2 f (⟨j, hj⟩ : Fin 5)) (ix3 f (0 : Fin 1) (⟨j, hj⟩ : Fin 5)) (by
      rw [Shape.rowMajor_val_three, Shape.rowMajor_val_two]; show (f.val * 1 + 0) * 5 + j = f.val * 5 + j; omega)]

/-- One of five things by number. -/
def pick5 {α : Type} (s0 s1 s2 s3 s4 : α) : Fin 5 → α
  | ⟨0, _⟩ => s0 | ⟨1, _⟩ => s1 | ⟨2, _⟩ => s2 | ⟨3, _⟩ => s3 | ⟨4, _⟩ => s4

/-- Five slabs [1, 32, 64] stacked along the leading axis, read at (k, f, o): slab k at (0, f, o). -/
theorem cat5_apply (s0 s1 s2 s3 s4 : Tf S1x32x64) (k : Fin 5) (f : Fin 32) (o : Fin 64) :
    concatenate S5x32x64 0 [⟨S1x32x64, s0⟩, ⟨S1x32x64, s1⟩, ⟨S1x32x64, s2⟩, ⟨S1x32x64, s3⟩, ⟨S1x32x64, s4⟩]
        concatenates_S1x32x64_S1x32x64_S1x32x64_S1x32x64_S1x32x64_S5x32x64_d0 (ix3 k f o)
      = pick5 s0 s1 s2 s3 s4 k (ix3 (0 : Fin 1) f o) := by
  match k with
  | ⟨0, _⟩ =>
    refine Eq.trans (concatenate_apply_piece (0 : Fin 3) _ _ (ix3 (⟨0, by omega⟩ : Fin 5) f o) 0 (by show (0 : Nat) < 5; omega) S1x32x64 _ rfl rfl 0 rfl
      (ix3 (0 : Fin 1) f o) (fun b hb => ?_) rfl) rfl
    match b with
    | ⟨0, _⟩ => exact absurd rfl hb
    | ⟨1, _⟩ => rfl
    | ⟨2, _⟩ => rfl
  | ⟨1, _⟩ =>
    refine Eq.trans (concatenate_apply_piece (0 : Fin 3) _ _ (ix3 (⟨1, by omega⟩ : Fin 5) f o) 1 (by show (1 : Nat) < 5; omega) S1x32x64 _ rfl rfl 1 rfl
      (ix3 (0 : Fin 1) f o) (fun b hb => ?_) rfl) rfl
    match b with
    | ⟨0, _⟩ => exact absurd rfl hb
    | ⟨1, _⟩ => rfl
    | ⟨2, _⟩ => rfl
  | ⟨2, _⟩ =>
    refine Eq.trans (concatenate_apply_piece (0 : Fin 3) _ _ (ix3 (⟨2, by omega⟩ : Fin 5) f o) 2 (by show (2 : Nat) < 5; omega) S1x32x64 _ rfl rfl 2 rfl
      (ix3 (0 : Fin 1) f o) (fun b hb => ?_) rfl) rfl
    match b with
    | ⟨0, _⟩ => exact absurd rfl hb
    | ⟨1, _⟩ => rfl
    | ⟨2, _⟩ => rfl
  | ⟨3, _⟩ =>
    refine Eq.trans (concatenate_apply_piece (0 : Fin 3) _ _ (ix3 (⟨3, by omega⟩ : Fin 5) f o) 3 (by show (3 : Nat) < 5; omega) S1x32x64 _ rfl rfl 3 rfl
      (ix3 (0 : Fin 1) f o) (fun b hb => ?_) rfl) rfl
    match b with
    | ⟨0, _⟩ => exact absurd rfl hb
    | ⟨1, _⟩ => rfl
    | ⟨2, _⟩ => rfl
  | ⟨4, _⟩ =>
    refine Eq.trans (concatenate_apply_piece (0 : Fin 3) _ _ (ix3 (⟨4, by omega⟩ : Fin 5) f o) 4 (by show (4 : Nat) < 5; omega) S1x32x64 _ rfl rfl 4 rfl
      (ix3 (0 : Fin 1) f o) (fun b hb => ?_) rfl) rfl
    match b with
    | ⟨0, _⟩ => exact absurd rfl hb
    | ⟨1, _⟩ => rfl
    | ⟨2, _⟩ => rfl

/-! ## What the region finds -/

variable (m : (ℓ : Loc nD τ sig) → Buf (Elt Ideal) ℓ)

set_option maxHeartbeats 4000000 in
theorem V_v14 (c : Dev nD) : (V (F := Ideal) m c main_v14 : Tf S16x49152x32) = x1 (m ((c : Thread nD τ).loc main_arg0) : Tf S16x49152x32) (m ((c : Thread nD τ).loc main_arg1) : Tf S393216) (m ((c : Thread nD τ).loc main_arg5) : Ti S393216) (m ((c : Thread nD τ).loc main_arg6) : Ti S393216) := by
  dsimp only [V, hostOps0]
  after_results_simp
  rfl
set_option maxHeartbeats 4000000 in
theorem V_v32 (c : Dev nD) : (V (F := Ideal) m c main_v32 : Tf S16x49152x32) = x2 (m ((c : Thread nD τ).loc main_arg0) : Tf S16x49152x32) (m ((c : Thread nD τ).loc main_arg1) : Tf S393216) (m ((c : Thread nD τ).loc main_arg5) : Ti S393216) (m ((c : Thread nD τ).loc main_arg6) : Ti S393216) := by
  dsimp only [V, hostOps0]
  after_results_simp
  rfl
set_option maxHeartbeats 4000000 in
theorem V_v50 (c : Dev nD) : (V (F := Ideal) m c main_v50 : Tf S16x49152x32) = x3 (m ((c : Thread nD τ).loc main_arg0) : Tf S16x49152x32) (m ((c : Thread nD τ).loc main_arg1) : Tf S393216) (m ((c : Thread nD τ).loc main_arg5) : Ti S393216) (m ((c : Thread nD τ).loc main_arg6) : Ti S393216) := by
  dsimp only [V, hostOps0]
  after_results_simp
  rfl
set_option maxHeartbeats 4000000 in
theorem V_v68 (c : Dev nD) : (V (F := Ideal) m c main_v68 : Tf S16x49152x32) = x4 (m ((c : Thread nD τ).loc main_arg0) : Tf S16x49152x32) (m ((c : Thread nD τ).loc main_arg1) : Tf S393216) (m ((c : Thread nD τ).loc main_arg5) : Ti S393216) (m ((c : Thread nD τ).loc main_arg6) : Ti S393216) := by
  dsimp only [V, hostOps0]
  after_results_simp
  rfl

set_option maxHeartbeats 4000000 in
theorem V_v100 (c : Dev nD) : (V (F := Ideal) m c main_v100 : Tf S1x32x64) = wslab 0 slices_S32x5_S32x1_0_0 (m ((c : Thread nD τ).loc main_arg2) : Tf S32x1x5) (m ((c : Thread nD τ).loc main_arg3) : Tf S64x32) := by
  dsimp only [V, hostOps0]
  after_results_simp
  rfl
set_option maxHeartbeats 4000000 in
theorem V_v101 (c : Dev nD) : (V (F := Ideal) m c main_v101 : Tf S1x32x64) = wslab 1 slices_S32x5_S32x1_0_1 (m ((c : Thread nD τ).loc main_arg2) : Tf S32x1x5) (m ((c : Thread nD τ).loc main_arg3) : Tf S64x32) := by
  dsimp only [V, hostOps0]
  after_results_simp
  rfl
set_option maxHeartbeats 4000000 in
theorem V_v102 (c : Dev nD) : (V (F := Ideal) m c main_v102 : Tf S1x32x64) = wslab 2 slices_S32x5_S32x1_0_2 (m ((c : Thread nD τ).loc main_arg2) : Tf S32x1x5) (m ((c : Thread nD τ).loc main_arg3) : Tf S64x32) := by
  dsimp only [V, hostOps0]
  after_results_simp
  rfl
set_option maxHeartbeats 4000000 in
theorem V_v103 (c : Dev nD) : (V (F := Ideal) m c main_v103 : Tf S1x32x64) = wslab 3 slices_S32x5_S32x1_0_3 (m ((c : Thread nD τ).loc main_arg2) : Tf S32x1x5) (m ((c : Thread nD τ).loc main_arg3) : Tf S64x32) := by
  dsimp only [V, hostOps0]
  after_results_simp
  rfl
set_option maxHeartbeats 4000000 in
theorem V_v104 (c : Dev nD) : (V (F := Ideal) m c main_v104 : Tf S1x32x64) = wslab 4 slices_S32x5_S32x1_0_4 (m ((c : Thread nD τ).loc main_arg2) : Tf S32x1x5) (m ((c : Thread nD τ).loc main_arg3) : Tf S64x32) := by
  dsimp only [V, hostOps0]
  after_results_simp
  rfl

set_option maxHeartbeats 4000000 in
/-- The stacked weights are the five slabs concatenated along the leading axis: the concatenation and the reshape
    after it are the last two host operations, and neither writes a slab. -/
theorem V_v105 (c : Dev nD) : (V (F := Ideal) m c main_v105 : Tf S5x32x64)
    = concatenate S5x32x64 0 [⟨S1x32x64, (V (F := Ideal) m c main_v100 : Tf S1x32x64)⟩, ⟨S1x32x64, (V (F := Ideal) m c main_v101 : Tf S1x32x64)⟩, ⟨S1x32x64, (V (F := Ideal) m c main_v102 : Tf S1x32x64)⟩, ⟨S1x32x64, (V (F := Ideal) m c main_v103 : Tf S1x32x64)⟩, ⟨S1x32x64, (V (F := Ideal) m c main_v104 : Tf S1x32x64)⟩]
        concatenates_S1x32x64_S1x32x64_S1x32x64_S1x32x64_S1x32x64_S5x32x64_d0 := by
  dsimp only [V, hostOps0]
  simp (disch := decide) only [after_cons, after_nil, reshape_result_ne', nary_result_ne', nary_result']
  rfl

set_option maxHeartbeats 4000000 in
theorem V_v106 (c : Dev nD) : (V (F := Ideal) m c main_v106 : Tf S64) = shapeCast S64 (m ((c : Thread nD τ).loc main_arg4) : Tf S1x1x64) shapeCasts_S1x1x64_S64 := by
  dsimp only [V, hostOps0]
  after_results_simp
  rfl

/-! ## The deliverables: the windows' arrays read at an index -/

/-- Window 0's array is the first argument: the Chebyshev column of order 0. -/
theorem X0_apply (c : Dev nD) (n : Fin 16) (m' : Fin 49152) (f : Fin 32) :
    (V (F := Ideal) m c main_arg0 : S16x49152x32.Idx → EReal) (ix3 n m' f) = Cert.Spec.T (m ((c : Thread nD τ).loc main_arg0) : Tf S16x49152x32) (m ((c : Thread nD τ).loc main_arg1) : Tf S393216) (m ((c : Thread nD τ).loc main_arg5) : Ti S393216) (m ((c : Thread nD τ).loc main_arg6) : Ti S393216) (0 : Fin 5) n m' f := by
  rw [V_main_arg0]; rfl
/-- Window 1's array is the Chebyshev column of order 1, -/
theorem X1_apply (c : Dev nD) (n : Fin 16) (m' : Fin 49152) (f : Fin 32) :
    (V (F := Ideal) m c main_v14 : S16x49152x32.Idx → EReal) (ix3 n m' f) = Cert.Spec.T (m ((c : Thread nD τ).loc main_arg0) : Tf S16x49152x32) (m ((c : Thread nD τ).loc main_arg1) : Tf S393216) (m ((c : Thread nD τ).loc main_arg5) : Ti S393216) (m ((c : Thread nD τ).loc main_arg6) : Ti S393216) (1 : Fin 5) n m' f := by
  rw [V_v14]; exact x1_apply _ _ _ _ n m' f
/-- window 2's of order 2, -/
theorem X2_apply (c : Dev nD) (n : Fin 16) (m' : Fin 49152) (f : Fin 32) :
    (V (F := Ideal) m c main_v32 : S16x49152x32.Idx → EReal) (ix3 n m' f) = Cert.Spec.T (m ((c : Thread nD τ).loc main_arg0) : Tf S16x49152x32) (m ((c : Thread nD τ).loc main_arg1) : Tf S393216) (m ((c : Thread nD τ).loc main_arg5) : Ti S393216) (m ((c : Thread nD τ).loc main_arg6) : Ti S393216) (2 : Fin 5) n m' f := by
  rw [V_v32]; exact x2_apply _ _ _ _ n m' f
/-- window 3's of order 3, -/
theorem X3_apply (c : Dev nD) (n : Fin 16) (m' : Fin 49152) (f : Fin 32) :
    (V (F := Ideal) m c main_v50 : S16x49152x32.Idx → EReal) (ix3 n m' f) = Cert.Spec.T (m ((c : Thread nD τ).loc main_arg0) : Tf S16x49152x32) (m ((c : Thread nD τ).loc main_arg1) : Tf S393216) (m ((c : Thread nD τ).loc main_arg5) : Ti S393216) (m ((c : Thread nD τ).loc main_arg6) : Ti S393216) (3 : Fin 5) n m' f := by
  rw [V_v50]; exact x3_apply _ _ _ _ n m' f
/-- and window 4's of order 4. -/
theorem X4_apply (c : Dev nD) (n : Fin 16) (m' : Fin 49152) (f : Fin 32) :
    (V (F := Ideal) m c main_v68 : S16x49152x32.Idx → EReal) (ix3 n m' f) = Cert.Spec.T (m ((c : Thread nD τ).loc main_arg0) : Tf S16x49152x32) (m ((c : Thread nD τ).loc main_arg1) : Tf S393216) (m ((c : Thread nD τ).loc main_arg5) : Ti S393216) (m ((c : Thread nD τ).loc main_arg6) : Ti S393216) (4 : Fin 5) n m' f := by
  rw [V_v68]; exact x4_apply _ _ _ _ n m' f

/-- Window 5's array, the stacked weights, at (k, f, o): the pointwise weight of (o, f) times the depthwise
    coefficient of (f, k). -/
theorem W_apply (c : Dev nD) (k : Fin 5) (f : Fin 32) (o : Fin 64) :
    (V (F := Ideal) m c main_v105 : S5x32x64.Idx → EReal) (ix3 k f o)
      = @HMul.hMul EReal EReal EReal instHMul ((m ((c : Thread nD τ).loc main_arg3) : Tf S64x32) (ix2 o f)) ((m ((c : Thread nD τ).loc main_arg2) : Tf S32x1x5) (ix3 f (0 : Fin 1) k)) := by
  rw [V_v105, cat5_apply]
  match k with
  | ⟨0, _⟩ =>
    show (V (F := Ideal) m c main_v100 : Tf S1x32x64) (ix3 (0 : Fin 1) f o) = _
    rw [V_v100]; exact wslab_apply 0 slices_S32x5_S32x1_0_0 (by omega) _ _ f o
  | ⟨1, _⟩ =>
    show (V (F := Ideal) m c main_v101 : Tf S1x32x64) (ix3 (0 : Fin 1) f o) = _
    rw [V_v101]; exact wslab_apply 1 slices_S32x5_S32x1_0_1 (by omega) _ _ f o
  | ⟨2, _⟩ =>
    show (V (F := Ideal) m c main_v102 : Tf S1x32x64) (ix3 (0 : Fin 1) f o) = _
    rw [V_v102]; exact wslab_apply 2 slices_S32x5_S32x1_0_2 (by omega) _ _ f o
  | ⟨3, _⟩ =>
    show (V (F := Ideal) m c main_v103 : Tf S1x32x64) (ix3 (0 : Fin 1) f o) = _
    rw [V_v103]; exact wslab_apply 3 slices_S32x5_S32x1_0_3 (by omega) _ _ f o
  | ⟨4, _⟩ =>
    show (V (F := Ideal) m c main_v104 : Tf S1x32x64) (ix3 (0 : Fin 1) f o) = _
    rw [V_v104]; exact wslab_apply 4 slices_S32x5_S32x1_0_4 (by omega) _ _ f o

/-- Window 6's array is the bias with its two unit axes dropped. -/
theorem b_apply (c : Dev nD) (o : Fin 64) :
    (V (F := Ideal) m c main_v106 : S64.Idx → EReal) (ix1 o) = (m ((c : Thread nD τ).loc main_arg4) : Tf S1x1x64) (ix3 (0 : Fin 1) (0 : Fin 1) o) := by
  rw [V_v106]
  exact shapeCast_apply _ _ (ix1 o) (ix3 (0 : Fin 1) (0 : Fin 1) o) (by
    rw [Shape.rowMajor_val_three, Shape.rowMajor_val_one]; show (0 * 1 + 0) * 64 + o.val = o.val; omega)

end Cert.KernelIdeal.Hand

end
-- ==== Proof.Finite.lean ====
/-
  Finite inputs are real numbers.

  The finiteness predicate takes the five float arguments and, for each, asks that every entry x satisfy
  |x| < +∞, where |x| = max x (−x) on the extended reals; each such family of comparisons is folded by "and" over
  all axes, starting from the word 1, and the five folds are joined by "and". Two facts read the precondition back:

  • an "and" of one-bit words is 1 exactly when both words are 1, and an "and" folded over all entries of an
    array is 1 only when the word at each entry is 1;
  • an extended real x with max x (−x) < +∞ is neither +∞ nor −∞, that is, it is the coercion of a real number.

  Together: when the precondition evaluates to 1, every entry of every float argument is a real number. The module
  closes with two literal facts: the f32 words of 2.0 and of 0.0 denote the reals 2 and 0.
-/
import proofs.«157191_j24421184045264_2_alg».proof.Proof.Gen.Pre_finite_inputs
import proofs.«157191_j24421184045264_2_alg».proof.Proof.LibRealSums
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Math Cert.Pre_finite_inputs

/-- The scalar shape has exactly one index: there is no axis to give a coordinate for. -/
instance subsingleton_scalar_idx : Subsingleton S_.Idx := ⟨fun _ _ => funext fun d => d.elim0⟩

/-- A strict "less than" comparison of extended reals that returns the word 1 says that the order relation holds. -/
theorem lt_of_cmp_olt {x y : EReal} (h : Ideal.cmp .olt x y = 1#1) : x < y := by
  by_contra hn
  simp [Ideal.cmp, hn] at h

/-- A float whose absolute value max x (−x) compares strictly below the f32 word of +∞ is a real number. -/
theorem isReal_of_abs_olt_inf {x : EReal}
    (h : Ideal.cmp .olt (max x (-x)) (Ideal.ofBits .f32 0x7F800000#32) = 1#1) : IsReal x := by
  have hlt := lt_of_cmp_olt h
  rw [ofBits_inf] at hlt
  exact isReal_of_abs_lt_top hlt

/-- An "and" of two one-bit arrays that is 1 at an index has both operands 1 at that index. -/
theorem andi_apply_eq_one {s : Shape} (x y : IVec s 1) (i : s.Idx) (h : andi x y i = 1#1) :
    x i = 1#1 ∧ y i = 1#1 :=
  IntOp.andi_eq_one.1 h

/-- One argument's share of the precondition: if the "and" over all entries of the comparisons |a i| < +∞ is 1,
    then each comparison is 1, so each entry of the array is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : IsReal (a i) := by
  have h1 := Host.reduce_andi_all _ _ hr hu ix0 e i
  exact isReal_of_abs_olt_inf h1

/-- When the precondition evaluates to 1, every entry of each of the five float arguments is a real number. -/
theorem real_of_pre (a0 : FVec Ideal Cert.Pre_finite_inputs.S16x49152x32 .f32)
    (a1 : FVec Ideal Cert.Pre_finite_inputs.S393216 .f32) (a2 : FVec Ideal Cert.Pre_finite_inputs.S32x1x5 .f32)
    (a3 : FVec Ideal Cert.Pre_finite_inputs.S64x32 .f32) (a4 : FVec Ideal Cert.Pre_finite_inputs.S1x1x64 .f32)
    (a5 a6 : IVec Cert.Pre_finite_inputs.S393216 32)
    (h : Cert.Pre_finite_inputs.fn (F := Ideal) a0 a1 a2 a3 a4 a5 a6 = fun _ => 1#1) :
    (∀ i, Cert.Math.IsReal (a0 i)) ∧ (∀ i, Cert.Math.IsReal (a1 i)) ∧ (∀ i, Cert.Math.IsReal (a2 i)) ∧
      (∀ i, Cert.Math.IsReal (a3 i)) ∧ (∀ i, Cert.Math.IsReal (a4 i)) := by
  have h0 := congrFun h ix0
  unfold Cert.Pre_finite_inputs.fn Cert.Pre_finite_inputs.fn_part1 at h0
  dsimp only at h0
  obtain ⟨h0123, e4⟩ := andi_apply_eq_one _ _ _ h0
  obtain ⟨h012, e3⟩ := andi_apply_eq_one _ _ _ h0123
  obtain ⟨h01, e2⟩ := andi_apply_eq_one _ _ _ h012
  obtain ⟨e0, e1⟩ := andi_apply_eq_one _ _ _ h01
  exact ⟨real_of_all a0 _ _ _ e0, real_of_all a1 _ _ _ e1, real_of_all a2 _ _ _ e2,
    real_of_all a3 _ _ _ e3, real_of_all a4 _ _ _ e4⟩

/-- The f32 word 0x40000000 (sign 0, exponent field 128, zero fraction) denotes the real number 2. -/
theorem two_real : Cert.Math.IsReal (Ideal.ofBits .f32 0x40000000#32) := by
  refine ⟨2, ?_⟩
  -- the significand 2^23 scaled by 2^(128 − 127 − 23) = 2^(−22)
  have e : ((8388608 : ℝ) : EReal) * (((2 : ℝ) ^ 22)⁻¹ : ℝ) = ((2 : ℝ) : EReal) := by
    rw [← EReal.coe_mul]; congr 1; norm_num
  simpa [Ideal.ofBits, Ideal.ieee] using e

/-- The f32 word 0x00000000 denotes the real number 0. -/
theorem zero_real : Cert.Math.IsReal (Ideal.ofBits .f32 0x00000000#32) := by
  rw [Ideal.ofBits_zero_f32]; exact isReal_zero

end Cert.Finite

end
-- ==== Proof.KernelFinal.lean ====
/-
  The kernel's result is the specification's, for real inputs.

  The region finds the five Chebyshev arrays, the stacked filter W[k, f, o] = pkernel[o, f] · dkernel[f, 0, k] and
  the bias row. Its result accumulates, order by order, the products Σ_f T k [n, m, f] · W[k, f, o]; the
  specification applies the depthwise filter first, Σ_f pkernel[o, f] · (Σ_k dkernel[f, 0, k] · T k [n, m, f]).
  Every Chebyshev entry is a real number when the inputs are, so the two agree by distributivity over the reals.
-/
import proofs.«157191_j24421184045264_2_alg».proof.Proof.KernelValue
import proofs.«157191_j24421184045264_2_alg».proof.Proof.KernelHost
import proofs.«157191_j24421184045264_2_alg».proof.Proof.Finite
import proofs.«157191_j24421184045264_2_alg».proof.Proof.Cheb
import proofs.«157191_j24421184045264_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Math

variable (m : (ℓ : Loc nD τ sig) → Buf (Elt Ideal) ℓ) (ρ : Dev nD → PrngReg)

/-- The kernel-side array at (n, m, o). -/
theorem GK_at (X0 X1 X2 X3 X4 : S16x49152x32.Idx → EReal) (W : S5x32x64.Idx → EReal) (b : S64.Idx → EReal)
    (n : Fin 16) (m' : Fin 49152) (o : Fin 64) :
    GK X0 X1 X2 X3 X4 W b (ix3 n m' o)
      = max (((((((Ideal.ofBits .f32 0x00000000#32 : EReal)
        + ∑ f : Fin 32, X0 (ix3 n m' f) * W (ix3 (0 : Fin 5) f o))
        + ∑ f : Fin 32, X1 (ix3 n m' f) * W (ix3 (1 : Fin 5) f o))
        + ∑ f : Fin 32, X2 (ix3 n m' f) * W (ix3 (2 : Fin 5) f o))
        + ∑ f : Fin 32, X3 (ix3 n m' f) * W (ix3 (3 : Fin 5) f o))
        + ∑ f : Fin 32, X4 (ix3 n m' f) * W (ix3 (4 : Fin 5) f o))
        + b (ix1 o)) (Ideal.ofBits .f32 0x00000000#32) := rfl

/-- The specification at (n, m, o). -/
theorem G_at (a0 : (⟨3, ![16, 49152, 32]⟩ : Shape).Idx → EReal) (a1 : (⟨1, ![393216]⟩ : Shape).Idx → EReal)
    (a2 : (⟨3, ![32, 1, 5]⟩ : Shape).Idx → EReal) (a3 : (⟨2, ![64, 32]⟩ : Shape).Idx → EReal)
    (a4 : (⟨3, ![1, 1, 64]⟩ : Shape).Idx → EReal) (a5 a6 : (⟨1, ![393216]⟩ : Shape).Idx → BitVec 32)
    (n : Fin 16) (m' : Fin 49152) (o : Fin 64) :
    Cert.Spec.G a0 a1 a2 a3 a4 a5 a6 (ix3 n m' o)
      = max ((∑ f : Fin 32, a3 (ix2 o f) * ∑ k : Fin 5, a2 (ix3 f (0 : Fin 1) k) * Cert.Spec.T a0 a1 a5 a6 k n m' f)
        + a4 (ix3 (0 : Fin 1) (0 : Fin 1) o)) Cert.Spec.zr := rfl

/-- For real inputs the array the run leaves is the specification's result. -/
theorem GK_eq_G (c : Dev nD)
    (h0 : ∀ i, IsReal (((m ((c.tc : Thread nD τ).loc main_arg0)) : S16x49152x32.Idx → EReal) i))
    (h1 : ∀ i, IsReal (((m ((c.tc : Thread nD τ).loc main_arg1)) : S393216.Idx → EReal) i))
    (h2 : ∀ i, IsReal (((m ((c.tc : Thread nD τ).loc main_arg2)) : S32x1x5.Idx → EReal) i))
    (h3 : ∀ i, IsReal (((m ((c.tc : Thread nD τ).loc main_arg3)) : S64x32.Idx → EReal) i)) :
    GK (V m c main_arg0) (V m c main_v14) (V m c main_v32) (V m c main_v50) (V m c main_v68) (V m c main_v105) (V m c main_v106)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨n, m', o, rfl⟩ : ∃ (n : Fin 16) (m' : Fin 49152) (o : Fin 64), i = ix3 n m' o := ⟨i 0, i 1, i 2, eq_ix3 i⟩
  rw [GK_at, G_at]
  have e0 : ∀ f : Fin 32, (V m c main_arg0 : S16x49152x32.Idx → EReal) (ix3 n m' f) = _ := fun f => X0_apply m c n m' f
  have e1 : ∀ f : Fin 32, (V m c main_v14 : S16x49152x32.Idx → EReal) (ix3 n m' f) = _ := fun f => X1_apply m c n m' f
  have e2 : ∀ f : Fin 32, (V m c main_v32 : S16x49152x32.Idx → EReal) (ix3 n m' f) = _ := fun f => X2_apply m c n m' f
  have e3 : ∀ f : Fin 32, (V m c main_v50 : S16x49152x32.Idx → EReal) (ix3 n m' f) = _ := fun f => X3_apply m c n m' f
  have e4 : ∀ f : Fin 32, (V m c main_v68 : S16x49152x32.Idx → EReal) (ix3 n m' f) = _ := fun f => X4_apply m c n m' f
  have w0 : ∀ f : Fin 32, (V m c main_v105 : S5x32x64.Idx → EReal) (ix3 (0 : Fin 5) f o) = _ := fun f => W_apply m c 0 f o
  have w1 : ∀ f : Fin 32, (V m c main_v105 : S5x32x64.Idx → EReal) (ix3 (1 : Fin 5) f o) = _ := fun f => W_apply m c 1 f o
  have w2 : ∀ f : Fin 32, (V m c main_v105 : S5x32x64.Idx → EReal) (ix3 (2 : Fin 5) f o) = _ := fun f => W_apply m c 2 f o
  have w3 : ∀ f : Fin 32, (V m c main_v105 : S5x32x64.Idx → EReal) (ix3 (3 : Fin 5) f o) = _ := fun f => W_apply m c 3 f o
  have w4 : ∀ f : Fin 32, (V m c main_v105 : S5x32x64.Idx → EReal) (ix3 (4 : Fin 5) f o) = _ := fun f => W_apply m c 4 f o
  have eb : (V m c main_v106 : S64.Idx → EReal) (ix1 o) = _ := b_apply m c o
  simp only [e0, e1, e2, e3, e4, w0, w1, w2, w3, w4, eb]
  have hT : ∀ (k : Fin 5) (f : Fin 32), IsReal (Cert.Spec.T (m ((c.tc : Thread nD τ).loc main_arg0)) (m ((c.tc : Thread nD τ).loc main_arg1)) (m ((c.tc : Thread nD τ).loc main_arg5)) (m ((c.tc : Thread nD τ).loc main_arg6)) k n m' f) :=
    fun k f => Cert.Cheb.cheb_real Cert.Finite.zero_real Cert.Finite.two_real (fun e => h1 _) (fun q => h0 _) k m'
  have h := Cert.Cheb.filter_assoc (fun k f => Cert.Spec.T (m ((c.tc : Thread nD τ).loc main_arg0)) (m ((c.tc : Thread nD τ).loc main_arg1)) (m ((c.tc : Thread nD τ).loc main_arg5)) (m ((c.tc : Thread nD τ).loc main_arg6)) k n m' f)
    (fun f => ((m ((c.tc : Thread nD τ).loc main_arg3)) : S64x32.Idx → EReal) (ix2 o f)) (fun f k => ((m ((c.tc : Thread nD τ).loc main_arg2)) : S32x1x5.Idx → EReal) (ix3 f (0 : Fin 1) k))
    hT (fun f => h3 _) (fun f k => h2 _)
  unfold Cert.Spec.zr
  rw [Ideal.ofBits_zero_f32, h]

/-- The kernel's run under real inputs: the result is the specification's, the arguments are unchanged. -/
theorem run_spec
    (hreal : ∀ c : Dev nD, (∀ i, IsReal (((m ((c.tc : Thread nD τ).loc main_arg0)) : S16x49152x32.Idx → EReal) i)) ∧ (∀ i, IsReal (((m ((c.tc : Thread nD τ).loc main_arg1)) : S393216.Idx → EReal) i))
      ∧ (∀ i, IsReal (((m ((c.tc : Thread nD τ).loc main_arg2)) : S32x1x5.Idx → EReal) i)) ∧ (∀ i, IsReal (((m ((c.tc : Thread nD τ).loc main_arg3)) : S64x32.Idx → EReal) i))) :
    θ_run defs (onTc (τ := τ) (main (F := Ideal))) ⟨m, fun _ => 0, ρ⟩ (fun r => ∀ c : Dev nD,
      r.2.mem ((c.tc : Thread nD τ).loc main_v107) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c).1.trans (GK_eq_G m c (hreal c).1 (hreal c).2.1 (hreal c).2.2.1 (hreal c).2.2.2), (h c).2⟩)
    (run_value m ρ)

end Cert.KernelIdeal.Hand

end
-- ==== Proof.RefTail.lean ====
/-
  The reference after its five Chebyshev arrays: the arrays are stacked, re-laid so that the channel comes first,
  filtered along the Chebyshev order by dkernel (depthwise) and along the channels by pkernel (pointwise), re-laid
  back to [batch, node, output channel], and the bias is added before the maximum with zero. Read at (n, m, o) this is
     max (Σ_f pkernel[o,f] · (Σ_k dkernel[f,0,k] · Y k [m, n·32 + f]) + bias[0,0,o]) 0
  where Y k is the k-th stacked array, whose column n·32 + f holds batch n, channel f.
-/
import proofs.«157191_j24421184045264_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S16x49152x32, .f32⟩ : BufTy).Contents (Elt Ideal)) (x1 : (⟨S393216, .f32⟩ : BufTy).Contents (Elt Ideal))
  (x2 : (⟨S32x1x5, .f32⟩ : BufTy).Contents (Elt Ideal)) (x3 : (⟨S64x32, .f32⟩ : BufTy).Contents (Elt Ideal))
  (x4 : (⟨S1x1x64, .f32⟩ : BufTy).Contents (Elt Ideal)) (x5 x6 : (⟨S393216, .i32⟩ : BufTy).Contents (Elt Ideal))

/-- The five arrays the reference stacks, by number. -/
def Y (k : Fin 5) : S49152x512.Idx → EReal := match k with
  | ⟨0, _⟩ => val_main_v1 (F := Ideal) x0
  | ⟨1, _⟩ => val_main_v14 (F := Ideal) x0 x1 x5 x6
  | ⟨2, _⟩ => val_main_v30 (F := Ideal) x0 x1 x5 x6
  | ⟨3, _⟩ => val_main_v46 (F := Ideal) x0 x1 x5 x6
  | ⟨4, _⟩ => val_main_v62 (F := Ideal) x0 x1 x5 x6

/-- Slab k of the stack is the k-th array. -/
theorem stack_apply (k : Fin 5) (m : Fin 49152) (j : Fin 512) :
    val_main_v68 (F := Ideal) x0 x1 x5 x6 (ix3 k m j) = Y x0 x1 x5 x6 k (ix2 m j) := by
  unfold val_main_v68
  match k with
  | ⟨0, _⟩ =>
    refine (concatenate_apply_piece (t := S5x49152x512) _ _ _ _ 0 ?_ S1x49152x512 (val_main_v63 (F := Ideal) x0) ?_ rfl 0 ?_
      (ix3 (0 : Fin 1) m j) ?_ ?_).trans ?_
    · show _ < 5; omega
    · rfl
    · simp
    · intro b hb
      match b with
      | ⟨0, _⟩ => exact absurd rfl hb
      | ⟨1, _⟩ => rfl
      | ⟨2, _⟩ => rfl
    · rfl
    · rw [val_main_v63_apply]
      exact congrArg (val_main_v1 (F := Ideal) x0) (funext fun a => Fin.ext (by
        match a with
        | ⟨0, _⟩ => rfl
        | ⟨1, _⟩ => rfl))
  | ⟨1, _⟩ =>
    refine (concatenate_apply_piece (t := S5x49152x512) _ _ _ _ 1 ?_ S1x49152x512 (val_main_v64 (F := Ideal) x0 x1 x5 x6) ?_ rfl 1 ?_
      (ix3 (0 : Fin 1) m j) ?_ ?_).trans ?_
    · show _ < 5; omega
    · rfl
    · simp
    · intro b hb
      match b with
      | ⟨0, _⟩ => exact absurd rfl hb
      | ⟨1, _⟩ => rfl
      | ⟨2, _⟩ => rfl
    · rfl
    · rw [val_main_v64_apply]
      exact congrArg (val_main_v14 (F := Ideal) x0 x1 x5 x6) (funext fun a => Fin.ext (by
        match a with
        | ⟨0, _⟩ => rfl
        | ⟨1, _⟩ => rfl))
  | ⟨2, _⟩ =>
    refine (concatenate_apply_piece (t := S5x49152x512) _ _ _ _ 2 ?_ S1x49152x512 (val_main_v65 (F := Ideal) x0 x1 x5 x6) ?_ rfl 2 ?_
      (ix3 (0 : Fin 1) m j) ?_ ?_).trans ?_
    · show _ < 5; omega
    · rfl
    · simp
    · intro b hb
      match b with
      | ⟨0, _⟩ => exact absurd rfl hb
      | ⟨1, _⟩ => rfl
      | ⟨2, _⟩ => rfl
    · rfl
    · rw [val_main_v65_apply]
      exact congrArg (val_main_v30 (F := Ideal) x0 x1 x5 x6) (funext fun a => Fin.ext (by
        match a with
        | ⟨0, _⟩ => rfl
        | ⟨1, _⟩ => rfl))
  | ⟨3, _⟩ =>
    refine (concatenate_apply_piece (t := S5x49152x512) _ _ _ _ 3 ?_ S1x49152x512 (val_main_v66 (F := Ideal) x0 x1 x5 x6) ?_ rfl 3 ?_
      (ix3 (0 : Fin 1) m j) ?_ ?_).trans ?_
    · show _ < 5; omega
    · rfl
    · simp
    · intro b hb
      match b with
      | ⟨0, _⟩ => exact absurd rfl hb
      | ⟨1, _⟩ => rfl
      | ⟨2, _⟩ => rfl
    · rfl
    · rw [val_main_v66_apply]
      exact congrArg (val_main_v46 (F := Ideal) x0 x1 x5 x6) (funext fun a => Fin.ext (by
        match a with
        | ⟨0, _⟩ => rfl
        | ⟨1, _⟩ => rfl))
  | ⟨4, _⟩ =>
    refine (concatenate_apply_piece (t := S5x49152x512) _ _ _ _ 4 ?_ S1x49152x512 (val_main_v67 (F := Ideal) x0 x1 x5 x6) ?_ rfl 4 ?_
      (ix3 (0 : Fin 1) m j) ?_ ?_).trans ?_
    · show _ < 5; omega
    · rfl
    · simp
    · intro b hb
      match b with
      | ⟨0, _⟩ => exact absurd rfl hb
      | ⟨1, _⟩ => rfl
      | ⟨2, _⟩ => rfl
    · rfl
    · rw [val_main_v67_apply]
      exact congrArg (val_main_v62 (F := Ideal) x0 x1 x5 x6) (funext fun a => Fin.ext (by
        match a with
        | ⟨0, _⟩ => rfl
        | ⟨1, _⟩ => rfl))

/-- The row-major position (f·5 + k)·786432 + (n·49152 + m) split four ways. -/
theorem relay_arith (f k n m : ℕ) (hf : f < 32) (hk : k < 5) (hn : n < 16) (hm : m < 49152) :
    ((f * 5 + k) * 786432 + (n * 49152 + m)) / 786432 = f * 5 + k ∧ ((f * 5 + k) * 786432 + (n * 49152 + m)) % 49152 = m
      ∧ ((f * 5 + k) * 786432 + (n * 49152 + m)) / 49152 = (f * 5 + k) * 16 + n ∧ ((f * 5 + k) * 786432 + (n * 49152 + m)) / 3932160 = f
      ∧ (f * 5 + k) % 5 = k ∧ ((f * 5 + k) * 16 + n) % 16 = n :=
  ⟨by omega, by omega, by omega, by omega, by omega, by omega⟩

/-- The re-laid stack read at (channel f, order k, position n·49152 + m): slab k at node m, column n·32 + f. -/
theorem relaid_apply (f : Fin 32) (k : Fin 5) (n : Fin 16) (m : Fin 49152) :
    val_main_v71 (F := Ideal) x0 x1 x5 x6 (ix3 f k (⟨n.val * 49152 + m.val, by omega⟩ : Fin 786432))
      = Y x0 x1 x5 x6 k (ix2 m (⟨n.val * 32 + f.val, by omega⟩ : Fin 512)) := by
  rw [val_main_v71_apply, val_main_v70_apply, val_main_v69_apply, ← stack_apply]
  refine congrArg _ (funext fun a => Fin.ext ?_)
  have hf := f.isLt; have hk := k.isLt; have hn := n.isLt; have hm := m.isLt
  obtain ⟨h1, h2, h3, h4, h5, h6⟩ := relay_arith f.val k.val n.val m.val hf hk hn hm
  have hR : ((((((f.val * 5 + k.val) * 786432 + (n.val * 49152 + m.val)) / 786432 % 5) * 49152 + ((f.val * 5 + k.val) * 786432 + (n.val * 49152 + m.val)) % 49152) * 16 + ((f.val * 5 + k.val) * 786432 + (n.val * 49152 + m.val)) / 49152 % 16) * 32 + ((f.val * 5 + k.val) * 786432 + (n.val * 49152 + m.val)) / 3932160) = (((k.val * 49152 + m.val) * 16 + n.val) * 32 + f.val) := by
    rw [h1, h2, h3, h4, h5, h6]
  clear h1 h2 h3 h4 h5 h6
  match a with
  | ⟨0, _⟩ =>
    show ((((((f.val * 5 + k.val) * 786432 + (n.val * 49152 + m.val)) / 786432 % 5) * 49152 + ((f.val * 5 + k.val) * 786432 + (n.val * 49152 + m.val)) % 49152) * 16 + ((f.val * 5 + k.val) * 786432 + (n.val * 49152 + m.val)) / 49152 % 16) * 32 + ((f.val * 5 + k.val) * 786432 + (n.val * 49152 + m.val)) / 3932160) / 25165824 = k.val
    rw [hR]; clear hR; omega
  | ⟨1, _⟩ =>
    show ((((((f.val * 5 + k.val) * 786432 + (n.val * 49152 + m.val)) / 786432 % 5) * 49152 + ((f.val * 5 + k.val) * 786432 + (n.val * 49152 + m.val)) % 49152) * 16 + ((f.val * 5 + k.val) * 786432 + (n.val * 49152 + m.val)) / 49152 % 16) * 32 + ((f.val * 5 + k.val) * 786432 + (n.val * 49152 + m.val)) / 3932160) / 512 % 49152 = m.val
    rw [hR]; clear hR; omega
  | ⟨2, _⟩ =>
    show ((((((f.val * 5 + k.val) * 786432 + (n.val * 49152 + m.val)) / 786432 % 5) * 49152 + ((f.val * 5 + k.val) * 786432 + (n.val * 49152 + m.val)) % 49152) * 16 + ((f.val * 5 + k.val) * 786432 + (n.val * 49152 + m.val)) / 49152 % 16) * 32 + ((f.val * 5 + k.val) * 786432 + (n.val * 49152 + m.val)) / 3932160) % 512 = n.val * 32 + f.val
    rw [hR]; clear hR; omega

/-- The reference's result at (n, m, o), over the stacked arrays. -/
theorem tail_apply (n : Fin 16) (m : Fin 49152) (o : Fin 64) :
    val_main_v79 (F := Ideal) x0 x1 x2 x3 x4 x5 x6 (ix3 n m o)
      = max ((∑ f : Fin 32, x3 (ix2 o f) * ∑ k : Fin 5, x2 (ix3 f (0 : Fin 1) k)
            * Y x0 x1 x5 x6 k (ix2 m (⟨n.val * 32 + f.val, by omega⟩ : Fin 512)))
          + x4 (ix3 (0 : Fin 1) (0 : Fin 1) o)) (Ideal.ofBits .f32 0x00000000#32) := by
  have hn := n.isLt; have hm := m.isLt; have ho := o.isLt
  rw [val_main_v79_apply, val_main_v78_apply, val_main_v77_apply, val_main_v76_apply, val_main_v75_apply,
    val_main_v74_apply, val_main_call0_v0_apply, val_main_call0_cst_apply]
  show max ((∑ f : Fin 32, _) + _) _ = _
  congr 1
  congr 1
  · refine Finset.sum_congr rfl fun f _ => ?_
    have hf := f.isLt
    have e1 : lidx_main_v74 (idx_main_v75 (idx_main_v76 (ix3 n m o))) f = ix2 o f := by
      funext a; refine Fin.ext ?_
      match a with
      | ⟨0, _⟩ => show ((n.val * 49152 + m.val) * 64 + o.val) % 64 = o.val; omega
      | ⟨1, _⟩ => rfl
    have e2 : idx_main_v73 (ridx_main_v74 (idx_main_v75 (idx_main_v76 (ix3 n m o))) f)
        = ix3 f (0 : Fin 1) (⟨n.val * 49152 + m.val, by omega⟩ : Fin 786432) := by
      funext a; refine Fin.ext ?_
      match a with
      | ⟨0, _⟩ => show (f.val * 786432 + ((n.val * 49152 + m.val) * 64 + o.val) / 64) / 786432 = f.val; omega
      | ⟨1, _⟩ => rfl
      | ⟨2, _⟩ => show (f.val * 786432 + ((n.val * 49152 + m.val) * 64 + o.val) / 64) % 786432 = n.val * 49152 + m.val; omega
    rw [e1, val_main_v73_apply, e2, val_main_v72_apply]
    refine congrArg _ (Finset.sum_congr rfl fun k _ => ?_)
    have e3 : lidx_main_v72 (ix3 f (0 : Fin 1) (⟨n.val * 49152 + m.val, by omega⟩ : Fin 786432)) k = ix3 f (0 : Fin 1) k := by
      funext a; refine Fin.ext ?_
      match a with
      | ⟨0, _⟩ => rfl
      | ⟨1, _⟩ => rfl
      | ⟨2, _⟩ => rfl
    have e4 : ridx_main_v72 (ix3 f (0 : Fin 1) (⟨n.val * 49152 + m.val, by omega⟩ : Fin 786432)) k
        = ix3 f k (⟨n.val * 49152 + m.val, by omega⟩ : Fin 786432) := by
      funext a; refine Fin.ext ?_
      match a with
      | ⟨0, _⟩ => rfl
      | ⟨1, _⟩ => rfl
      | ⟨2, _⟩ => rfl
    rw [e3, e4, relaid_apply]
  · refine congrArg x4 (funext fun a => Fin.ext ?_)
    match a with
    | ⟨0, _⟩ => rfl
    | ⟨1, _⟩ => rfl
    | ⟨2, _⟩ => rfl

end Cert.ReferenceIdeal.RefValue

end
-- ==== Proof.RefCheb.lean ====
/-
  The reference's five stacked arrays are the Chebyshev columns.

  The reference keeps the input as a matrix with one row per node and one column per (batch, channel) pair: column
  n·32 + f holds batch n, channel f. One step of its recursion gathers, for every edge, the source node's row,
  multiplies it by the edge's weight, and adds the product onto the row the edge's row index names; read at one column
  this is the sparse matrix applied to that column — the sum over the edges whose row index is the node, of the weight
  times the column at the source node. The source node is the normalised column index, clamped; an edge whose row
  index names no node adds nowhere. The second to fourth steps double the product and subtract the array before the
  previous one. So, column by column, the five arrays are T0 … T4 of the column of the input, and the reference's
  result is the result function of Spec.lean.
-/
import proofs.«157191_j24421184045264_2_alg».proof.Proof.Gen.ReferenceIdeal.Read
import proofs.«157191_j24421184045264_2_alg».proof.Proof.RefTail
import proofs.«157191_j24421184045264_2_alg».proof.Proof.Spec
import proofs.«157191_j24421184045264_2_alg».proof.Proof.LibEdgeSums
import proofs.«157191_j24421184045264_2_alg».proof.Proof.LibGatherRows
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S16x49152x32, .f32⟩ : BufTy).Contents (Elt Ideal)) (x1 : (⟨S393216, .f32⟩ : BufTy).Contents (Elt Ideal))
  (x2 : (⟨S32x1x5, .f32⟩ : BufTy).Contents (Elt Ideal)) (x3 : (⟨S64x32, .f32⟩ : BufTy).Contents (Elt Ideal))
  (x4 : (⟨S1x1x64, .f32⟩ : BufTy).Contents (Elt Ideal)) (x5 x6 : (⟨S393216, .i32⟩ : BufTy).Contents (Elt Ideal))

/-- ONE STEP, READ AT (m, j): scattering, by the row indices, the weight times the gathered row of `Yp`, from zero, is
    the sparse matrix applied to column j of `Yp`. The hypotheses say what the four operand arrays hold at an index:
    zero everywhere, the row index of edge e, its normalised column index, its weight along the whole row. -/
theorem row_step (z : S49152x512.Idx → EReal) (ri ci : IVec S393216x1 32) (evb : S393216x512.Idx → EReal)
    (Yp : S49152x512.Idx → EReal)
    (hz : ∀ i, z i = Cert.Spec.zr) (hri : ∀ e : Fin 393216, ri (ix2 e (0 : Fin 1)) = x5 (ix1 e))
    (hci : ∀ e : Fin 393216, ci (ix2 e (0 : Fin 1)) = Cert.Spec.nrm (x6 (ix1 e)))
    (hev : ∀ (e : Fin 393216) (j : Fin 512), evb (ix2 e j) = x1 (ix1 e)) (m : Fin 49152) (j : Fin 512) :
    (Host.scatterAdd (F := Ideal) (φ := .f32) scatter_S49152x512_S393216x1_S393216x512_1_0_0_1 z ri
        (mulf (F := Ideal) (φ := .f32) evb
          (Host.gather gather_S49152x512_S393216x1_S393216x512_1_0_n_n_0_1_1512 Yp ci))
      : S49152x512.Idx → EReal) (ix2 m j)
      = Cert.Cheb.spmm Cert.Spec.zr (Cert.Spec.ev x1) (Cert.Spec.rows x5) (Cert.Spec.src x6)
          (fun m' => Yp (ix2 m' j)) m := by
  refine (Cert.EdgeSums.scatter_rows_apply scatter_S49152x512_S393216x1_S393216x512_1_0_0_1_wf z ri _ m j).trans ?_
  unfold Cert.Cheb.spmm
  rw [hz]
  refine congrArg (Cert.Spec.zr + ·) (Finset.sum_congr rfl fun e _ => ?_)
  rw [hri e]
  have hg : Host.gather gather_S49152x512_S393216x1_S393216x512_1_0_n_n_0_1_1512 Yp ci (ix2 e j)
      = Yp (ix2 (Cert.Spec.src x6 e) j) := by
    refine (GatherRows.gather_rows_apply (by omega : 0 < 49152)
      gather_S49152x512_S393216x1_S393216x512_1_0_n_n_0_1_1512_wf Yp ci e j).trans ?_
    refine congrArg (fun r => Yp (ix2 r j)) (Fin.ext ?_)
    show min (ci (ix2 e (0 : Fin 1))).toInt.toNat (49152 - 1)
      = min (Cert.Spec.nrm (x6 (ix1 e))).toInt.toNat (49152 - 1)
    rw [hci e]
  show (if (x5 (ix1 e)).toInt = (m.val : Int) then
      evb (ix2 e j) * Host.gather gather_S49152x512_S393216x1_S393216x512_1_0_n_n_0_1_1512 Yp ci (ix2 e j) else 0)
    = if Cert.Spec.rows x5 e = (m.val : Int) then Cert.Spec.ev x1 e * Yp (ix2 (Cert.Spec.src x6 e) j) else 0
  rw [hg, hev e j]
  rfl

/-- An array over the edges read at the index of edge `e`. -/
theorem at_edge {α : Type} (x : S393216.Idx → α) (i : S393216.Idx) (e : Fin 393216) (h : (i 0).val = e.val) :
    x i = x (ix1 e) :=
  congrArg x (funext fun a => match a with | ⟨0, _⟩ => Fin.ext h)

/-- Step 1 starts from zero. -/
theorem zero_1 (i : S49152x512.Idx) : val_main_v12 (F := Ideal) i = Cert.Spec.zr := by
  rw [val_main_v12_apply, val_main_cst_apply]; rfl

/-- Step 1's scatter indices hold the edges' row indices. -/
theorem rowidx_1 (e : Fin 393216) : val_main_v13 (F := Ideal) x5 (ix2 e (0 : Fin 1)) = x5 (ix1 e) := by
  rw [val_main_v13_apply]; exact at_edge x5 _ e rfl

/-- Step 1's start indices hold the edges' normalised column indices. -/
theorem colidx_1 (e : Fin 393216) :
    val_main_v8 (F := Ideal) x6 (ix2 e (0 : Fin 1)) = Cert.Spec.nrm (x6 (ix1 e)) := by
  rw [val_main_v8_apply, val_main_v7_apply, val_main_v4_apply, val_main_v6_apply, val_main_v3_apply,
    val_main_v5_apply, val_main_c_apply, val_main_c_0_apply, at_edge x6 _ e rfl]
  rfl

/-- Step 1's weight array holds edge e's weight along row e. -/
theorem weight_1 (e : Fin 393216) (j : Fin 512) : val_main_v10 (F := Ideal) x1 (ix2 e j) = x1 (ix1 e) := by
  rw [val_main_v10_apply, val_main_v2_apply]; exact at_edge x1 _ e rfl

/-- Step 2 starts from zero. -/
theorem zero_2 (i : S49152x512.Idx) : val_main_v25 (F := Ideal) i = Cert.Spec.zr := by
  rw [val_main_v25_apply, val_main_cst_3_apply]; rfl

/-- Step 2's scatter indices hold the edges' row indices. -/
theorem rowidx_2 (e : Fin 393216) : val_main_v26 (F := Ideal) x5 (ix2 e (0 : Fin 1)) = x5 (ix1 e) := by
  rw [val_main_v26_apply]; exact at_edge x5 _ e rfl

/-- Step 2's start indices hold the edges' normalised column indices. -/
theorem colidx_2 (e : Fin 393216) :
    val_main_v21 (F := Ideal) x6 (ix2 e (0 : Fin 1)) = Cert.Spec.nrm (x6 (ix1 e)) := by
  rw [val_main_v21_apply, val_main_v20_apply, val_main_v17_apply, val_main_v19_apply, val_main_v16_apply,
    val_main_v18_apply, val_main_c_1_apply, val_main_c_2_apply, at_edge x6 _ e rfl]
  rfl

/-- Step 2's weight array holds edge e's weight along row e. -/
theorem weight_2 (e : Fin 393216) (j : Fin 512) : val_main_v23 (F := Ideal) x1 (ix2 e j) = x1 (ix1 e) := by
  rw [val_main_v23_apply, val_main_v15_apply]; exact at_edge x1 _ e rfl

/-- Step 3 starts from zero. -/
theorem zero_3 (i : S49152x512.Idx) : val_main_v41 (F := Ideal) i = Cert.Spec.zr := by
  rw [val_main_v41_apply, val_main_cst_7_apply]; rfl

/-- Step 3's scatter indices hold the edges' row indices. -/
theorem rowidx_3 (e : Fin 393216) : val_main_v42 (F := Ideal) x5 (ix2 e (0 : Fin 1)) = x5 (ix1 e) := by
  rw [val_main_v42_apply]; exact at_edge x5 _ e rfl

/-- Step 3's start indices hold the edges' normalised column indices. -/
theorem colidx_3 (e : Fin 393216) :
    val_main_v37 (F := Ideal) x6 (ix2 e (0 : Fin 1)) = Cert.Spec.nrm (x6 (ix1 e)) := by
  rw [val_main_v37_apply, val_main_v36_apply, val_main_v33_apply, val_main_v35_apply, val_main_v32_apply,
    val_main_v34_apply, val_main_c_5_apply, val_main_c_6_apply, at_edge x6 _ e rfl]
  rfl

/-- Step 3's weight array holds edge e's weight along row e. -/
theorem weight_3 (e : Fin 393216) (j : Fin 512) : val_main_v39 (F := Ideal) x1 (ix2 e j) = x1 (ix1 e) := by
  rw [val_main_v39_apply, val_main_v31_apply]; exact at_edge x1 _ e rfl

/-- Step 4 starts from zero. -/
theorem zero_4 (i : S49152x512.Idx) : val_main_v57 (F := Ideal) i = Cert.Spec.zr := by
  rw [val_main_v57_apply, val_main_cst_11_apply]; rfl

/-- Step 4's scatter indices hold the edges' row indices. -/
theorem rowidx_4 (e : Fin 393216) : val_main_v58 (F := Ideal) x5 (ix2 e (0 : Fin 1)) = x5 (ix1 e) := by
  rw [val_main_v58_apply]; exact at_edge x5 _ e rfl

/-- Step 4's start indices hold the edges' normalised column indices. -/
theorem colidx_4 (e : Fin 393216) :
    val_main_v53 (F := Ideal) x6 (ix2 e (0 : Fin 1)) = Cert.Spec.nrm (x6 (ix1 e)) := by
  rw [val_main_v53_apply, val_main_v52_apply, val_main_v49_apply, val_main_v51_apply, val_main_v48_apply,
    val_main_v50_apply, val_main_c_9_apply, val_main_c_10_apply, at_edge x6 _ e rfl]
  rfl

/-- Step 4's weight array holds edge e's weight along row e. -/
theorem weight_4 (e : Fin 393216) (j : Fin 512) : val_main_v55 (F := Ideal) x1 (ix2 e j) = x1 (ix1 e) := by
  rw [val_main_v55_apply, val_main_v47_apply]; exact at_edge x1 _ e rfl

/-- Column n·32 + f of the first array is batch n, channel f of the input. -/
theorem Y0_col (n : Fin 16) (f : Fin 32) (m : Fin 49152) :
    val_main_v1 (F := Ideal) x0 (ix2 m (⟨n.val * 32 + f.val, by omega⟩ : Fin 512)) = x0 (ix3 n m f) := by
  rw [val_main_v1_apply, val_main_v0_apply]
  refine congrArg x0 (funext fun a => Fin.ext ?_)
  have hn := n.isLt; have hf := f.isLt; have hm := m.isLt
  match a with
  | ⟨0, _⟩ => show (m.val * 512 + (n.val * 32 + f.val)) / 32 % 16 = n.val; omega
  | ⟨1, _⟩ => show (m.val * 512 + (n.val * 32 + f.val)) / 512 = m.val; omega
  | ⟨2, _⟩ => show (m.val * 512 + (n.val * 32 + f.val)) % 32 = f.val; omega

/-- Column n·32 + f of the second array is T1 of that column of the input. -/
theorem Y1_col (n : Fin 16) (f : Fin 32) (m : Fin 49152) :
    val_main_v14 (F := Ideal) x0 x1 x5 x6 (ix2 m (⟨n.val * 32 + f.val, by omega⟩ : Fin 512))
      = Cert.Cheb.t1 Cert.Spec.zr (Cert.Spec.ev x1) (Cert.Spec.rows x5) (Cert.Spec.src x6)
          (fun m' => x0 (ix3 n m' f)) m := by
  refine (row_step x1 x5 x6 (val_main_v12 (F := Ideal)) (val_main_v13 (F := Ideal) x5) (val_main_v8 (F := Ideal) x6)
    (val_main_v10 (F := Ideal) x1) (val_main_v1 (F := Ideal) x0) zero_1 (rowidx_1 x5) (colidx_1 x6) (weight_1 x1) m
    (⟨n.val * 32 + f.val, by omega⟩ : Fin 512)).trans ?_
  unfold Cert.Cheb.t1
  exact congrArg (fun v => Cert.Cheb.spmm Cert.Spec.zr (Cert.Spec.ev x1) (Cert.Spec.rows x5) (Cert.Spec.src x6) v m)
    (funext fun m' => Y0_col x0 n f m')

/-- Column n·32 + f of the third array is T2 of that column: twice the step on the second array, minus the first. -/
theorem Y2_col (n : Fin 16) (f : Fin 32) (m : Fin 49152) :
    val_main_v30 (F := Ideal) x0 x1 x5 x6 (ix2 m (⟨n.val * 32 + f.val, by omega⟩ : Fin 512))
      = Cert.Cheb.t2 Cert.Spec.zr Cert.Spec.two (Cert.Spec.ev x1) (Cert.Spec.rows x5) (Cert.Spec.src x6)
          (fun m' => x0 (ix3 n m' f)) m := by
  have hs : val_main_v27 (F := Ideal) x0 x1 x5 x6 (ix2 m (⟨n.val * 32 + f.val, by omega⟩ : Fin 512))
      = Cert.Cheb.spmm Cert.Spec.zr (Cert.Spec.ev x1) (Cert.Spec.rows x5) (Cert.Spec.src x6)
          (Cert.Cheb.t1 Cert.Spec.zr (Cert.Spec.ev x1) (Cert.Spec.rows x5) (Cert.Spec.src x6)
            (fun m' => x0 (ix3 n m' f))) m := by
    refine (row_step x1 x5 x6 (val_main_v25 (F := Ideal)) (val_main_v26 (F := Ideal) x5) (val_main_v21 (F := Ideal) x6)
      (val_main_v23 (F := Ideal) x1) (val_main_v14 (F := Ideal) x0 x1 x5 x6) zero_2 (rowidx_2 x5) (colidx_2 x6)
      (weight_2 x1) m (⟨n.val * 32 + f.val, by omega⟩ : Fin 512)).trans ?_
    exact congrArg (fun v => Cert.Cheb.spmm Cert.Spec.zr (Cert.Spec.ev x1) (Cert.Spec.rows x5) (Cert.Spec.src x6) v m)
      (funext fun m' => Y1_col x0 x1 x5 x6 n f m')
  rw [val_main_v30_apply, val_main_v29_apply, val_main_v28_apply, val_main_cst_4_apply, hs,
    Y0_col x0 n f m]
  rfl

/-- Column n·32 + f of the fourth array is T3 of that column. -/
theorem Y3_col (n : Fin 16) (f : Fin 32) (m : Fin 49152) :
    val_main_v46 (F := Ideal) x0 x1 x5 x6 (ix2 m (⟨n.val * 32 + f.val, by omega⟩ : Fin 512))
      = Cert.Cheb.t3 Cert.Spec.zr Cert.Spec.two (Cert.Spec.ev x1) (Cert.Spec.rows x5) (Cert.Spec.src x6)
          (fun m' => x0 (ix3 n m' f)) m := by
  have hs : val_main_v43 (F := Ideal) x0 x1 x5 x6 (ix2 m (⟨n.val * 32 + f.val, by omega⟩ : Fin 512))
      = Cert.Cheb.spmm Cert.Spec.zr (Cert.Spec.ev x1) (Cert.Spec.rows x5) (Cert.Spec.src x6)
          (Cert.Cheb.t2 Cert.Spec.zr Cert.Spec.two (Cert.Spec.ev x1) (Cert.Spec.rows x5) (Cert.Spec.src x6)
            (fun m' => x0 (ix3 n m' f))) m := by
    refine (row_step x1 x5 x6 (val_main_v41 (F := Ideal)) (val_main_v42 (F := Ideal) x5) (val_main_v37 (F := Ideal) x6)
      (val_main_v39 (F := Ideal) x1) (val_main_v30 (F := Ideal) x0 x1 x5 x6) zero_3 (rowidx_3 x5) (colidx_3 x6)
      (weight_3 x1) m (⟨n.val * 32 + f.val, by omega⟩ : Fin 512)).trans ?_
    exact congrArg (fun v => Cert.Cheb.spmm Cert.Spec.zr (Cert.Spec.ev x1) (Cert.Spec.rows x5) (Cert.Spec.src x6) v m)
      (funext fun m' => Y2_col x0 x1 x5 x6 n f m')
  rw [val_main_v46_apply, val_main_v45_apply, val_main_v44_apply, val_main_cst_8_apply, hs,
    Y1_col x0 x1 x5 x6 n f m]
  rfl

/-- Column n·32 + f of the fifth array is T4 of that column. -/
theorem Y4_col (n : Fin 16) (f : Fin 32) (m : Fin 49152) :
    val_main_v62 (F := Ideal) x0 x1 x5 x6 (ix2 m (⟨n.val * 32 + f.val, by omega⟩ : Fin 512))
      = Cert.Cheb.t4 Cert.Spec.zr Cert.Spec.two (Cert.Spec.ev x1) (Cert.Spec.rows x5) (Cert.Spec.src x6)
          (fun m' => x0 (ix3 n m' f)) m := by
  have hs : val_main_v59 (F := Ideal) x0 x1 x5 x6 (ix2 m (⟨n.val * 32 + f.val, by omega⟩ : Fin 512))
      = Cert.Cheb.spmm Cert.Spec.zr (Cert.Spec.ev x1) (Cert.Spec.rows x5) (Cert.Spec.src x6)
          (Cert.Cheb.t3 Cert.Spec.zr Cert.Spec.two (Cert.Spec.ev x1) (Cert.Spec.rows x5) (Cert.Spec.src x6)
            (fun m' => x0 (ix3 n m' f))) m := by
    refine (row_step x1 x5 x6 (val_main_v57 (F := Ideal)) (val_main_v58 (F := Ideal) x5) (val_main_v53 (F := Ideal) x6)
      (val_main_v55 (F := Ideal) x1) (val_main_v46 (F := Ideal) x0 x1 x5 x6) zero_4 (rowidx_4 x5) (colidx_4 x6)
      (weight_4 x1) m (⟨n.val * 32 + f.val, by omega⟩ : Fin 512)).trans ?_
    exact congrArg (fun v => Cert.Cheb.spmm Cert.Spec.zr (Cert.Spec.ev x1) (Cert.Spec.rows x5) (Cert.Spec.src x6) v m)
      (funext fun m' => Y3_col x0 x1 x5 x6 n f m')
  rw [val_main_v62_apply, val_main_v61_apply, val_main_v60_apply, val_main_cst_12_apply, hs,
    Y2_col x0 x1 x5 x6 n f m]
  rfl

/-- THE FIVE ARRAYS, READ AT (m, n·32 + f): Chebyshev column k of batch n and channel f, at node m. -/
theorem Y_apply (k : Fin 5) (m : Fin 49152) (n : Fin 16) (f : Fin 32) :
    Y x0 x1 x5 x6 k (ix2 m (⟨n.val * 32 + f.val, by omega⟩ : Fin 512)) = Cert.Spec.T x0 x1 x5 x6 k n m f := by
  match k with
  | ⟨0, _⟩ => exact Y0_col x0 n f m
  | ⟨1, _⟩ => exact Y1_col x0 x1 x5 x6 n f m
  | ⟨2, _⟩ => exact Y2_col x0 x1 x5 x6 n f m
  | ⟨3, _⟩ => exact Y3_col x0 x1 x5 x6 n f m
  | ⟨4, _⟩ => exact Y4_col x0 x1 x5 x6 n f m

/-- THE REFERENCE computes the result function. -/
theorem ref_eq : val_main_v79 (F := Ideal) x0 x1 x2 x3 x4 x5 x6 = Cert.Spec.G x0 x1 x2 x3 x4 x5 x6 := by
  funext i
  obtain ⟨n, m, o, rfl⟩ : ∃ n m o, i = ix3 n m o := ⟨i 0, i 1, i 2, eq_ix3 i⟩
  rw [tail_apply]
  unfold Cert.Spec.G
  simp only [Y_apply]
  rfl

end Cert.ReferenceIdeal.RefValue

end
-- ==== Proof.lean ====
/-
  A graph convolution by Chebyshev polynomials of a sparse Laplacian, followed by a depthwise and a pointwise
  filter, a bias and a rectifier: the kernel against its jnp reference.

  Both programs build the five Chebyshev arrays T0 = x, T1 = L x, T(k+1) = 2 L T(k) − T(k−1) on the host by gathering
  source rows, scaling by the edge weights and adding into the rows the edges name; the kernel keeps the layout
  [batch, node, channel], the reference works on [node, batch·channel]. Edge e reads the same source node and lands
  on the same row in both layouts, so the arrays agree entry by entry (Cheb.lean, Spec.lean, LibEdgeSums.lean).
  The kernel's one region then accumulates, per block of 2048 nodes, the five products with the stacked filter
  W[k] = (pkernel · dkernel[:, 0, k])ᵀ (KernelBody.lean, KernelValue.lean, KernelHost.lean); the reference
  filters along the order first and along the channels second (RefTail.lean, RefCheb.lean). For finite inputs every
  Chebyshev entry is a real number (Finite.lean), and over the reals the two orders of summation agree
  (Cheb.lean, filter_assoc). The three frames are the runs themselves: the kernel programs' by their staged
  pipeline (FrameIdeal.lean, FrameBits.lean), the reference's by its straight-line host run.
-/
import proofs.«157191_j24421184045264_2_alg».proof.Defs
import proofs.«157191_j24421184045264_2_alg».proof.Proof.Gen.Kernel
import proofs.«157191_j24421184045264_2_alg».proof.Proof.Gen.KernelIdeal
import proofs.«157191_j24421184045264_2_alg».proof.Proof.Gen.ReferenceIdeal
import proofs.«157191_j24421184045264_2_alg».proof.Proof.Gen.Pre_finite_inputs
import proofs.«157191_j24421184045264_2_alg».proof.Proof.Gen.ReferenceIdeal.Run
import proofs.«157191_j24421184045264_2_alg».proof.Proof.Gen.ReferenceIdeal.Read
import proofs.«157191_j24421184045264_2_alg».proof.Proof.FrameBits
import proofs.«157191_j24421184045264_2_alg».proof.Proof.FrameIdeal
import proofs.«157191_j24421184045264_2_alg».proof.Proof.KernelFinal
import proofs.«157191_j24421184045264_2_alg».proof.Proof.RefCheb
import proofs.«157191_j24421184045264_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end, faults nowhere and leaves its arguments as they were. -/
theorem frame_k : Cert.frame_Kernel := fun m ρ _ => Cert.Kernel.Hand.frame m ρ

/-- So does the kernel read at the ideal values. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both idealized programs end with the specification's result. -/
theorem algebraic : Cert.algebraic_KernelIdeal_ReferenceIdeal := by
  intro m ρ m' ρ' hpre hagree
  -- finite inputs are real numbers, on every device
  have hreal := fun c : Dev Cert.KernelIdeal.nD =>
    Cert.Finite.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact Cert.KernelIdeal.Hand.run_spec m ρ fun c =>
      ⟨(hreal c).1, (hreal c).2.1, (hreal c).2.2.1, (hreal c).2.2.2.1⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v79_eq, Cert.ReferenceIdeal.RefValue.ref_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
